-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S_ : Shape := ⟨0, ![]⟩
abbrev S1x1024x64 : Shape := ⟨3, ![1, 1024, 64]⟩
abbrev S1x512x64 : Shape := ⟨3, ![1, 512, 64]⟩
abbrev S1024x1 : Shape := ⟨2, ![1024, 1]⟩
abbrev S1024x64 : Shape := ⟨2, ![1024, 64]⟩
abbrev S512x64 : Shape := ⟨2, ![512, 64]⟩
abbrev S64x512 : Shape := ⟨2, ![64, 512]⟩
abbrev S1024x512 : Shape := ⟨2, ![1024, 512]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S_, .f32⟩
  | .hbm, ⟨5, _⟩ => ⟨S32x2048x64, .f32⟩
  | .hbm, ⟨6, _⟩ => ⟨S32x2048x64, .f32⟩
  | .hbm, ⟨7, _⟩ => ⟨S32x2048x64, .bf16⟩
  | .hbm, ⟨8, _⟩ => ⟨S32x2048x64, .f32⟩
  | .hbm, ⟨9, _⟩ => ⟨S32x2048x64, .bf16⟩
  | .hbm, ⟨10, _⟩ => ⟨S32x2048x64, .f32⟩
  | .hbm, ⟨11, _⟩ => ⟨S32x2048x64, .bf16⟩
  | .hbm, ⟨12, _⟩ => ⟨S32x2048x64, .f32⟩
  | .hbm, ⟨13, _⟩ => ⟨S2x16x2048x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x1024x64, .f32⟩
  | .local _ .vmem, ⟨7, _⟩ => ⟨S1x1024x64, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 4], ![false, false, false]⟩

def k0_cond2 (i : grid0.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_24 : BitVec 32 := 0#32
  let v42 : BitVec 1 := Scalar.cmpi .ne v41 c0_i32_24
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x64_S32x2048x64 : S2x16x2048x64.ShapeCasts S32x2048x64
  bcast_S_S32x2048x64 : S_.BroadcastsInDim S32x2048x64 (![] : Fin 0 → Fin S32x2048x64.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S32x2048x64.size a
  hwx0_1 : ∀ i : grid0.Coords, EltTy.bits .bf16 = 32 ∨ (Rect.block (s := S32x2048x64) S1x512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .bf16 = 32 ∨ (Rect.block (s := S32x2048x64) S1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v3) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one grid point leaves behind, as values. A grid point (bh, qi, ki) handles the 1024 query rows of block qi of
  head bh against the 512 key rows of block ki. Three scratch arrays are carried along the ki axis: the running maximum
  of each query row's scores, the running denominator, and the running numerator (one row of 64 columns per query row).
  At ki = 0 they start from -∞, 0 and 0; at every point they are updated from the point's blocks of q, k, v and their
  previous contents; at ki = 3 the output block is written: numerator over denominator. This module reads those
  contents off the runs of the body as pure functions (`newM`, `newL`, `newAcc`) of the blocks and the previous
  contents, for each of the three cases of the body's conditionals.
-/
import proofs.«158893_j3624952397975_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after a block of keys. -/
def newM (x0 : Vec F S1x1024x64 .bf16) (x1 : Vec F S1x512x64 .bf16) (xs0 : Vec F S1024x1 .f32) : Vec F S1024x1 .f32 :=
  k0_pay2 (k0_pay9 x0 x1 xs0)
/-- The running denominator after a block of keys. -/
def newL (x0 : Vec F S1x1024x64 .bf16) (x1 : Vec F S1x512x64 .bf16) (xs0 xs1 : Vec F S1024x1 .f32) : Vec F S1024x1 .f32 :=
  k0_pay12 x0 x1 xs0 xs1
/-- The running numerator after a block of keys. -/
def newAcc (x0 : Vec F S1x1024x64 .bf16) (x1 x2 : Vec F S1x512x64 .bf16) (xs0 : Vec F S1024x1 .f32) (xs2 : Vec F S1024x64 .f32) : Vec F S1024x64 .f32 :=
  k0_pay1 (k0_pay7 x2) (k0_pay13 x0 x1 xs0 xs2) (k0_pay14 x0 x1 xs0) (constant S1024x64 .f32 0x00000000#32)

theorem sout_B_0 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : ¬cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    sout0_B_0 c i a3 h3 a4 h4 a5 h5 a6 h6 a7 h7 a8 h8 a9 h9 hc0 hc1 x0 x1 x2 xs0 xs1 xs2 = newM x0 x1 xs0 := by
  unfold sout0_B_0
  rw [View.read_writes_eq_canon _ _ _ (scover0_B_0 c i a3 h3 a4 h4 a5 h5 a6 h6 a7 h7 a8 h8 a9 h9 hc0 hc1 x0 x1 x2 xs0 xs1 xs2)]
  unfold kernelRun0_B
  dsimp only
  try sl_unfold_words
  rw [View.canon_unit_zero hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_B_1 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : ¬cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    sout0_B_1 c i a3 h3 a4 h4 a5 h5 a6 h6 a7 h7 a8 h8 a9 h9 hc0 hc1 x0 x1 x2 xs0 xs1 xs2 = newL x0 x1 xs0 xs1 := by
  unfold sout0_B_1
  rw [View.read_writes_eq_canon _ _ _ (scover0_B_1 c i a3 h3 a4 h4 a5 h5 a6 h6 a7 h7 a8 h8 a9 h9 hc0 hc1 x0 x1 x2 xs0 xs1 xs2)]
  unfold kernelRun0_B
  dsimp only
  try sl_unfold_words
  rw [View.canon_unit_zero hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_B_2 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : ¬cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    sout0_B_2 c i a3 h3 a4 h4 a5 h5 a6 h6 a7 h7 a8 h8 a9 h9 hc0 hc1 x0 x1 x2 xs0 xs1 xs2 = newAcc x0 x1 x2 xs0 xs2 := by
  unfold sout0_B_2
  rw [View.read_writes_eq_canon _ _ _ (scover0_B_2 c i a3 h3 a4 h4 a5 h5 a6 h6 a7 h7 a8 h8 a9 h9 hc0 hc1 x0 x1 x2 xs0 xs1 xs2)]
  unfold kernelRun0_B
  dsimp only
  try sl_unfold_words
  rw [View.canon_unit_zero hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_C_0 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    sout0_C_0 c i a3 h3 a4 h4 a5 h5 a6 h6 a7 h7 a8 h8 a9 h9 hc0 hc1 x0 x1 x2 xs0 xs1 xs2 = newM x0 x1 xs0 := by
  unfold sout0_C_0
  rw [View.read_writes_eq_canon _ _ _ (scover0_C_0 c i a3 h3 a4 h4 a5 h5 a6 h6 a7 h7 a8 h8 a9 h9 hc0 hc1 x0 x1 x2 xs0 xs1 xs2)]
  unfold kernelRun0_C
  dsimp only
  try sl_unfold_words
  rw [View.canon_unit_zero hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_C_1 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    sout0_C_1 c i a3 h3 a4 h4 a5 h5 a6 h6 a7 h7 a8 h8 a9 h9 hc0 hc1 x0 x1 x2 xs0 xs1 xs2 = newL x0 x1 xs0 xs1 := by
  unfold sout0_C_1
  rw [View.read_writes_eq_canon _ _ _ (scover0_C_1 c i a3 h3 a4 h4 a5 h5 a6 h6 a7 h7 a8 h8 a9 h9 hc0 hc1 x0 x1 x2 xs0 xs1 xs2)]
  unfold kernelRun0_C
  dsimp only
  try sl_unfold_words
  rw [View.canon_unit_zero hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_C_2 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    sout0_C_2 c i a3 h3 a4 h4 a5 h5 a6 h6 a7 h7 a8 h8 a9 h9 hc0 hc1 x0 x1 x2 xs0 xs1 xs2 = newAcc x0 x1 x2 xs0 xs2 := by
  unfold sout0_C_2
  rw [View.read_writes_eq_canon _ _ _ (scover0_C_2 c i a3 h3 a4 h4 a5 h5 a6 h6 a7 h7 a8 h8 a9 h9 hc0 hc1 x0 x1 x2 xs0 xs1 xs2)]
  unfold kernelRun0_C
  dsimp only
  try sl_unfold_words
  rw [View.canon_unit_zero hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

/-- At the last block of keys the output block is the running numerator over the running denominator. -/
theorem out_C_3 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬cond0_0 i) (hc1 : cond0_1 i) (x0 : Vec F S1x1024x64 .bf16) (x1 : Vec F S1x512x64 .bf16) (x2 : Vec F S1x512x64 .bf16) (xs0 : Vec F S1024x1 .f32) (xs1 : Vec F S1024x1 .f32) (xs2 : Vec F S1024x64 .f32) :
    out0_C_3 c i a3 h3 a4 h4 a5 h5 a6 h6 a7 h7 a8 h8 a9 h9 hc0 hc1 x0 x1 x2 xs0 xs1 xs2 = k0_pay3 (newAcc x0 x1 x2 xs0 xs2) (newL x0 x1 xs0 xs1) := by
  unfold out0_C_3
  rw [View.read_writes_eq_canon _ _ _ (cover0_C_3 c i a3 h3 a4 h4 a5 h5 a6 h6 a7 h7 a8 h8 a9 h9 hc0 hc1 x0 x1 x2 xs0 xs1 xs2)]
  unfold kernelRun0_C
  dsimp only
  try sl_unfold_words
  rw [View.canon_unit_zero hz3]
  rw [View.readCov_unit_zero (S := S1024x64) _ hz2, View.readCov_unit_zero (S := S1024x1) _ hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_A_0 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : cond0_0 i) (hc1 : ¬cond0_1 i) (x0 : Vec F S1x1024x64 .bf16) (x1 : Vec F S1x512x64 .bf16) (x2 : Vec F S1x512x64 .bf16) :
    sout0_A_0 c i a3 h3 a4 h4 a5 h5 a6 h6 a7 h7 a8 h8 a9 h9 hc0 hc1 x0 x1 x2 = newM x0 x1 k0_pay4 := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  try sl_unfold_words
  rw [View.canon_cons_unit_zero (S := S1024x1) hz2]
  rw [View.readCov_unit_zero (S := S1024x1) _ hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_A_1 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : cond0_0 i) (hc1 : ¬cond0_1 i) (x0 : Vec F S1x1024x64 .bf16) (x1 : Vec F S1x512x64 .bf16) (x2 : Vec F S1x512x64 .bf16) :
    sout0_A_1 c i a3 h3 a4 h4 a5 h5 a6 h6 a7 h7 a8 h8 a9 h9 hc0 hc1 x0 x1 x2 = newL x0 x1 k0_pay4 k0_pay5 := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  try sl_unfold_words
  rw [View.canon_cons_unit_zero (S := S1024x1) hz2]
  rw [View.readCov_unit_zero (S := S1024x1) _ hz2, View.readCov_unit_zero (S := S1024x1) _ hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

theorem sout_A_2 (c : Dev nD) (i : grid0.Coords) (a3 : Memref sig .tc .vmem S1x1024x64 .bf16) (h3 : a3.IsWhole) (a4 : Memref sig .tc .vmem S1x512x64 .bf16) (h4 : a4.IsWhole) (a5 : Memref sig .tc .vmem S1x512x64 .bf16) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : cond0_0 i) (hc1 : ¬cond0_1 i) (x0 : Vec F S1x1024x64 .bf16) (x1 : Vec F S1x512x64 .bf16) (x2 : Vec F S1x512x64 .bf16) :
    sout0_A_2 c i a3 h3 a4 h4 a5 h5 a6 h6 a7 h7 a8 h8 a9 h9 hc0 hc1 x0 x1 x2 = newAcc x0 x1 x2 k0_pay4 k0_pay6 := by
  unfold sout0_A_2
  rw [View.read_writes_eq_canon _ _ _ (scover0_A_2 c i a3 h3 a4 h4 a5 h5 a6 h6 a7 h7 a8 h8 a9 h9 hc0 hc1 x0 x1 x2)]
  unfold kernelRun0_A
  dsimp only
  try sl_unfold_words
  rw [View.canon_cons_unit_zero (S := S1024x64) hz2]
  rw [View.readCov_unit_zero (S := S1024x1) _ hz2, View.readCov_unit_zero (S := S1024x64) _ hz2]
  simp only [View.readAt_eq_ld, h3.read_unread, h4.read_unread, h5.read_unread, h7.read_unread, h8.read_unread, h9.read_unread,
    View.ld_unit_zero (S := S1x1024x64) hz3, View.ld_unit_zero (S := S1x512x64) hz3, View.ld_unit_zero (S := S1024x1) hz2, View.ld_unit_zero (S := S1024x64) hz2]
  rfl

end Cert.KernelIdeal.Pieces
end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.Step.lean ====
/-
  One step of the online softmax, read entry by entry on the extended reals.

  With Q the point's block of (scaled) queries [1, 1024, 64], K and V its blocks of keys and values [1, 512, 64], and
  mP, lP, accP the previous running maximum, denominator and numerator, row r of the step is
    s r j   = ∑ e, Q (0, r, e) · K (0, j, e)                                  the scores of the row against the block's keys
    m' r    = max (mP r) (max over j of s r j, from -∞)
    l' r    = exp (mP r - m' r) · lP r + ∑ j, exp (s r j - m' r)
    acc' r d = exp (mP r - m' r) · accP r d + ∑ j, exp (s r j - m' r) · V (0, j, d)
  and the output entry is acc' r d / l' r.
-/
import proofs.«158893_j3624952397975_2_alg».proof.Proof.Pieces
import proofs.«158893_j3624952397975_2_alg».proof.Proof.LibColumns
import proofs.«158893_j3624952397975_2_alg».proof.Proof.LibPlainDot
import Idealize.ShloMosaic.Lib.ValueLayout
import Idealize.ShloMosaic.Lib.ValueIdx
import Idealize.ShloMosaic.PureOps.Ideal.Laws

noncomputable section

open scoped BigOperators

namespace Cert.KernelIdeal.Step

open Idealize.ShloMosaic Idealize.ShloMosaic.ValueIdx Cert.KernelIdeal Cert.KernelIdeal.Gen Cert.KernelIdeal.Pieces

/-- The scores of query row `r` against key row `j` of the point's blocks. -/
def sc (x0 : Vec Ideal S1x1024x64 .bf16) (x1 : Vec Ideal S1x512x64 .bf16) (r : Fin 1024) (j : Fin 512) : EReal :=
  ∑ e : Fin 64, x0 (ix3 0 r e) * x1 (ix3 0 j e)

/-- The scores matrix of the point, entry (r, j). -/
theorem pay8_apply (x0 : Vec Ideal S1x1024x64 .bf16) (x1 : Vec Ideal S1x512x64 .bf16) (r : Fin 1024) (j : Fin 512) :
    k0_pay8 (F := Ideal) x0 x1 (ix2 r j) = sc x0 x1 r j := by
  unfold k0_pay8 sc
  refine (Cert.Lib.PlainDot.matmul_plain_zero_apply (M := 1024) (K := 64) (N := 512) none _ _ r j).trans ?_
  refine Finset.sum_congr rfl fun e _ => ?_
  rw [shapeCast_1ab_ab_apply, transpose_ix2_apply, shapeCast_1ab_ab_apply]

/-- The new running maximum of row `r`: the previous one against the row's largest score in the block. -/
def mx (x0 : Vec Ideal S1x1024x64 .bf16) (x1 : Vec Ideal S1x512x64 .bf16) (xs0 : Vec Ideal S1024x1 .f32) (r : Fin 1024) : EReal :=
  max (xs0 (ix2 r 0)) ((Finset.univ : Finset (Fin 512)).fold max (Ideal.ofBits .f32 0xFF800000#32) (fun j => sc x0 x1 r j))

theorem pay9_apply (x0 : Vec Ideal S1x1024x64 .bf16) (x1 : Vec Ideal S1x512x64 .bf16) (xs0 : Vec Ideal S1024x1 .f32) (r : Fin 1024) :
    k0_pay9 (F := Ideal) x0 x1 xs0 (ix2 r 0) = mx x0 x1 xs0 r := by
  unfold k0_pay9 mx
  refine (maximumf_apply _ _ _).trans ?_
  refine congrArg (max (xs0 (ix2 r 0))) ?_
  refine (Cert.Columns.shapeCast_a_a1_apply _ _ r 0).trans ?_
  refine (Cert.Columns.laneMax_apply _ _ _ _ _ r).trans ?_
  exact congrArg (fun f => (Finset.univ : Finset (Fin 512)).fold max (Ideal.ofBits .f32 0xFF800000#32) f) (funext fun j => pay8_apply x0 x1 r j)

/-- The stored running maximum. -/
theorem newM_apply (x0 : Vec Ideal S1x1024x64 .bf16) (x1 : Vec Ideal S1x512x64 .bf16) (xs0 : Vec Ideal S1024x1 .f32) (r : Fin 1024) :
    newM (F := Ideal) x0 x1 xs0 (ix2 r 0) = mx x0 x1 xs0 r := by
  unfold newM k0_pay2
  exact (congrFun (shapeCast_self _ _) _).trans (pay9_apply x0 x1 xs0 r)

/-- The rescaling factor of row `r`: the exponential of the old maximum minus the new one. -/
theorem pay10_apply (x0 : Vec Ideal S1x1024x64 .bf16) (x1 : Vec Ideal S1x512x64 .bf16) (xs0 : Vec Ideal S1024x1 .f32) (r : Fin 1024) :
    k0_pay10 (F := Ideal) x0 x1 xs0 (ix2 r 0) = Ideal.exp (xs0 (ix2 r 0) - mx x0 x1 xs0 r) := by
  unfold k0_pay10
  show Ideal.exp (xs0 (ix2 r 0) - k0_pay9 (F := Ideal) x0 x1 xs0 (ix2 r 0)) = _
  rw [pay9_apply]

/-- The weights of the block: the exponential of each score minus the row's new maximum. -/
theorem pay11_apply (x0 : Vec Ideal S1x1024x64 .bf16) (x1 : Vec Ideal S1x512x64 .bf16) (xs0 : Vec Ideal S1024x1 .f32) (r : Fin 1024) (j : Fin 512) :
    k0_pay11 (F := Ideal) x0 x1 xs0 (ix2 r j) = Ideal.exp (sc x0 x1 r j - mx x0 x1 xs0 r) := by
  unfold k0_pay11
  show Ideal.exp (k0_pay8 (F := Ideal) x0 x1 (ix2 r j) - broadcastTo S1024x512 (k0_pay9 (F := Ideal) x0 x1 xs0) _ (ix2 r j)) = _
  rw [pay8_apply, Cert.Columns.broadcastTo_a1_ab_apply _ _ r j 0, pay9_apply]

/-- The new running denominator of row `r`. -/
theorem newL_apply (x0 : Vec Ideal S1x1024x64 .bf16) (x1 : Vec Ideal S1x512x64 .bf16) (xs0 xs1 : Vec Ideal S1024x1 .f32) (r : Fin 1024) :
    newL (F := Ideal) x0 x1 xs0 xs1 (ix2 r 0)
      = Ideal.exp (xs0 (ix2 r 0) - mx x0 x1 xs0 r) * xs1 (ix2 r 0) + ∑ j : Fin 512, Ideal.exp (sc x0 x1 r j - mx x0 x1 xs0 r) := by
  unfold newL k0_pay12
  refine (congrFun (shapeCast_self _ _) _).trans ?_
  refine (addf_apply _ _ _).trans ?_
  refine congrArg₂ (· + ·) ?_ ?_
  · refine (mulf_apply _ _ _).trans ?_
    rw [pay10_apply]
  · refine (Cert.Columns.shapeCast_a_a1_apply _ _ r 0).trans ?_
    refine (Cert.Columns.laneSum_apply _ _ _ _ _ r).trans ?_
    exact Finset.sum_congr rfl fun j _ => pay11_apply x0 x1 xs0 r j

/-- The new running numerator of row `r`, column `d`. -/
theorem newAcc_apply (x0 : Vec Ideal S1x1024x64 .bf16) (x1 x2 : Vec Ideal S1x512x64 .bf16) (xs0 : Vec Ideal S1024x1 .f32)
    (xs2 : Vec Ideal S1024x64 .f32) (r : Fin 1024) (d : Fin 64) :
    newAcc (F := Ideal) x0 x1 x2 xs0 xs2 (ix2 r d)
      = Ideal.exp (xs0 (ix2 r 0) - mx x0 x1 xs0 r) * xs2 (ix2 r d)
        + ∑ j : Fin 512, Ideal.exp (sc x0 x1 r j - mx x0 x1 xs0 r) * x2 (ix3 0 j d) := by
  unfold newAcc k0_pay1
  refine (congrFun (shapeCast_self _ _) _).trans ?_
  refine (addf_apply _ _ _).trans ?_
  refine congrArg₂ (· + ·) ?_ ?_
  · unfold k0_pay13
    refine (mulf_apply _ _ _).trans ?_
    rw [Cert.Columns.broadcastTo_a1_ab_apply _ _ r d 0, pay10_apply]
  · refine (Cert.Lib.PlainDot.matmul_plain_zero_apply (M := 1024) (K := 512) (N := 64) none _ _ r d).trans ?_
    refine Finset.sum_congr rfl fun j _ => ?_
    refine congrArg₂ (· * ·) ?_ ?_
    · unfold k0_pay14
      exact pay11_apply x0 x1 xs0 r j
    · unfold k0_pay7
      exact shapeCast_1ab_ab_apply _ _ j d

/-- The output block's entry: numerator over denominator. -/
theorem pay3_apply (acc : Vec Ideal S1024x64 .f32) (l : Vec Ideal S1024x1 .f32) (r : Fin 1024) (d : Fin 64) :
    k0_pay3 (F := Ideal) acc l (ix3 0 r d) = Ideal.div (acc (ix2 r d)) (l (ix2 r 0)) := by
  unfold k0_pay3
  refine (shapeCast_ab_1ab_apply _ _ 0 r d).trans ?_
  refine (divf_apply _ _ _).trans ?_
  rw [Cert.Columns.broadcastTo_a1_ab_apply _ _ r d 0]

end Cert.KernelIdeal.Step

end
-- ==== Proof.OnlineSoftmax.lean ====
/-
  The online-softmax recurrence, on real numbers and on the extended reals.

  A row of scores is cut into consecutive blocks. For a shift `m`, the partial denominator over the first `n` blocks
  is `den σ n m = ∑ (blocks below n) ∑ j, exp (σ j - m)` and the partial numerator against a column of values is
  `num σ ν n m = ∑ ∑ exp (σ j - m) · ν j`. Changing the shift from `m` to `m'` multiplies both by `exp (m - m')`, so
    exp (m - m') · den σ n m + ∑ j, exp (σ n j - m') = den σ (n + 1) m'
  and likewise for the numerator: this is one step of the recurrence, for ANY two real shifts (the running maximum is
  only one choice). Before the first block the running maximum is `-∞`, `exp (-∞ - m') = 0`, and the step starts
  both accumulators from the first block alone. At the end the quotient numerator / denominator is the softmax-weighted
  sum of the values, whatever real shift either side used.
-/
import Idealize.ShloMosaic.PureOps.Ideal

noncomputable section

open scoped BigOperators

namespace Cert.Attn.Online

open Idealize.ShloMosaic

/-- The coercion of a finite sum of reals is the sum of the coercions. -/
theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type*} [Fintype ι]

/-- The partial denominator: the exponentials of the first `n` blocks of scores, shifted by `m`. -/
def den (σ : ℕ → ι → ℝ) (n : ℕ) (m : ℝ) : ℝ := ∑ kb ∈ Finset.range n, ∑ j, Real.exp (σ kb j - m)

/-- The partial numerator: the same exponentials weighted by a column of values. -/
def num (σ : ℕ → ι → ℝ) (ν : ℕ → ι → ℝ) (n : ℕ) (m : ℝ) : ℝ :=
  ∑ kb ∈ Finset.range n, ∑ j, Real.exp (σ kb j - m) * ν kb j

/-- One step of the recurrence for the denominator, between any two real shifts. -/
theorem den_step (σ : ℕ → ι → ℝ) (n : ℕ) (m m' : ℝ) :
    Real.exp (m - m') * den σ n m + ∑ j, Real.exp (σ n j - m') = den σ (n + 1) m' := by
  unfold den
  rw [Finset.sum_range_succ, Finset.mul_sum]
  congr 1
  refine Finset.sum_congr rfl fun kb _ => ?_
  rw [Finset.mul_sum]
  refine Finset.sum_congr rfl fun j _ => ?_
  rw [← Real.exp_add]
  congr 1
  ring

/-- One step of the recurrence for the numerator. -/
theorem num_step (σ : ℕ → ι → ℝ) (ν : ℕ → ι → ℝ) (n : ℕ) (m m' : ℝ) :
    Real.exp (m - m') * num σ ν n m + ∑ j, Real.exp (σ n j - m') * ν n j = num σ ν (n + 1) m' := by
  unfold num
  rw [Finset.sum_range_succ, Finset.mul_sum]
  congr 1
  refine Finset.sum_congr rfl fun kb _ => ?_
  rw [Finset.mul_sum]
  refine Finset.sum_congr rfl fun j _ => ?_
  rw [← mul_assoc, ← Real.exp_add]
  congr 2
  ring

/-- The first block alone. -/
theorem den_one (σ : ℕ → ι → ℝ) (m : ℝ) : den σ 1 m = ∑ j, Real.exp (σ 0 j - m) := by
  unfold den; rw [Finset.sum_range_one]

theorem num_one (σ : ℕ → ι → ℝ) (ν : ℕ → ι → ℝ) (m : ℝ) : num σ ν 1 m = ∑ j, Real.exp (σ 0 j - m) * ν 0 j := by
  unfold num; rw [Finset.sum_range_one]

/-- A nonempty partial denominator is positive. -/
theorem den_pos [Nonempty ι] (σ : ℕ → ι → ℝ) (n : ℕ) (m : ℝ) : 0 < den σ (n + 1) m := by
  unfold den
  refine Finset.sum_pos (fun kb _ => Finset.sum_pos (fun j _ => Real.exp_pos _) Finset.univ_nonempty) ?_
  exact ⟨0, Finset.mem_range.mpr (Nat.succ_pos n)⟩

/-! ## The same on the extended reals, in the shape the vector unit computes it -/

/-- The exponential of a difference of reals. -/
theorem exp_sub_coe (a b : ℝ) : Ideal.exp ((a : EReal) - (b : EReal)) = ((Real.exp (a - b) : ℝ) : EReal) := by
  rw [← EReal.coe_sub]; rfl

/-- The exponential of `-∞` minus a real is zero. -/
theorem exp_bot_sub (b : ℝ) : Ideal.exp ((⊥ : EReal) - (b : EReal)) = 0 := by
  rw [EReal.bot_sub]; rfl

/-- One step for the denominator on the extended reals. -/
theorem l_step (σ : ℕ → ι → ℝ) (n : ℕ) (μ μ' : ℝ) :
    Ideal.exp ((μ : EReal) - (μ' : EReal)) * ((den σ n μ : ℝ) : EReal) + ∑ j, Ideal.exp ((σ n j : EReal) - (μ' : EReal))
      = ((den σ (n + 1) μ' : ℝ) : EReal) := by
  rw [← den_step σ n μ μ', EReal.coe_add, EReal.coe_mul, coe_sum, exp_sub_coe]
  refine congrArg₂ (· + ·) rfl ?_
  exact Finset.sum_congr rfl fun j _ => exp_sub_coe _ _

/-- The first step for the denominator: from the running maximum `-∞` and the accumulator `0`. -/
theorem l_first (σ : ℕ → ι → ℝ) (μ' : ℝ) :
    Ideal.exp ((⊥ : EReal) - (μ' : EReal)) * 0 + ∑ j, Ideal.exp ((σ 0 j : EReal) - (μ' : EReal))
      = ((den σ 1 μ' : ℝ) : EReal) := by
  rw [exp_bot_sub, zero_mul, zero_add, den_one, coe_sum]
  exact Finset.sum_congr rfl fun j _ => exp_sub_coe _ _

/-- One step for the numerator on the extended reals. -/
theorem acc_step (σ : ℕ → ι → ℝ) (ν : ℕ → ι → ℝ) (n : ℕ) (μ μ' : ℝ) :
    Ideal.exp ((μ : EReal) - (μ' : EReal)) * ((num σ ν n μ : ℝ) : EReal)
        + ∑ j, Ideal.exp ((σ n j : EReal) - (μ' : EReal)) * (ν n j : EReal)
      = ((num σ ν (n + 1) μ' : ℝ) : EReal) := by
  rw [← num_step σ ν n μ μ', EReal.coe_add, EReal.coe_mul, coe_sum, exp_sub_coe]
  refine congrArg₂ (· + ·) rfl ?_
  refine Finset.sum_congr rfl fun j _ => ?_
  rw [exp_sub_coe, EReal.coe_mul]

/-- The first step for the numerator. -/
theorem acc_first (σ : ℕ → ι → ℝ) (ν : ℕ → ι → ℝ) (μ' : ℝ) :
    Ideal.exp ((⊥ : EReal) - (μ' : EReal)) * 0 + ∑ j, Ideal.exp ((σ 0 j : EReal) - (μ' : EReal)) * (ν 0 j : EReal)
      = ((num σ ν 1 μ' : ℝ) : EReal) := by
  rw [exp_bot_sub, zero_mul, zero_add, num_one, coe_sum]
  refine Finset.sum_congr rfl fun j _ => ?_
  rw [exp_sub_coe, EReal.coe_mul]

/-! ## The running maximum is a real number -/

/-- The coercion of a maximum of reals. -/
theorem coe_max (a b : ℝ) : ((max a b : ℝ) : EReal) = max (a : EReal) (b : EReal) :=
  EReal.coe_strictMono.monotone.map_max

/-- A maximum taken from `-∞` over finitely many reals is `-∞` over no entries and a real otherwise. -/
theorem fold_max_coe {α : Type*} [DecidableEq α] (s : Finset α) (f : α → ℝ) :
    (s = ∅ ∧ s.fold max (⊥ : EReal) (fun k => (f k : EReal)) = ⊥)
      ∨ ∃ r : ℝ, s.fold max (⊥ : EReal) (fun k => (f k : EReal)) = (r : EReal) := by
  induction s using Finset.induction_on with
  | empty => exact Or.inl ⟨rfl, Finset.fold_empty⟩
  | insert a s ha ih =>
    refine Or.inr ?_
    rw [Finset.fold_insert ha]
    rcases ih with ⟨_, h⟩ | ⟨r, h⟩
    · exact ⟨f a, by rw [h, max_bot_right]⟩
    · exact ⟨max (f a) r, by rw [h, coe_max]⟩

/-- Over a nonempty block the maximum from `-∞` is a real. -/
theorem fold_max_real {n : ℕ} (hn : 0 < n) (f : Fin n → ℝ) :
    ∃ r : ℝ, (Finset.univ : Finset (Fin n)).fold max (⊥ : EReal) (fun k => (f k : EReal)) = (r : EReal) := by
  rcases fold_max_coe (Finset.univ : Finset (Fin n)) f with ⟨h, _⟩ | h
  · exact absurd h (Finset.univ_nonempty_iff.mpr ⟨⟨0, hn⟩⟩).ne_empty
  · exact h

/-- The maximum of `-∞` or a real with a real is a real. -/
theorem max_real_of (x : EReal) (hx : x = ⊥ ∨ ∃ r : ℝ, x = (r : EReal)) (y : ℝ) : ∃ r : ℝ, max x (y : EReal) = (r : EReal) := by
  rcases hx with rfl | ⟨r, rfl⟩
  · exact ⟨y, max_bot_left _⟩
  · exact ⟨max r y, (coe_max r y).symm⟩

/-- The quotient of two reals on the extended reals, the divisor not zero. -/
theorem div_coe_coe (x : ℝ) {y : ℝ} (hy : y ≠ 0) : Ideal.div (x : EReal) (y : EReal) = ((x / y : ℝ) : EReal) := by
  rw [Ideal.div_coe hy, ← EReal.coe_mul, mul_one_div]

/-! ## The carried values of one row -/

/-- After `n` blocks the carried values of a row are a real shift and the partial denominator and numerators
    (one per column of values) at that shift. -/
def RowInv {κ : Type*} (σ : ℕ → ι → ℝ) (ν : κ → ℕ → ι → ℝ) (n : ℕ) (mv lv : EReal) (av : κ → EReal) : Prop :=
  ∃ μ : ℝ, mv = (μ : EReal) ∧ lv = ((den σ n μ : ℝ) : EReal) ∧ ∀ d, av d = ((num σ (ν d) n μ : ℝ) : EReal)

/-- The first block: from the maximum `-∞` and zero accumulators, against a real block maximum `bm`. -/
theorem rowInv_first {κ : Type*} (σ : ℕ → ι → ℝ) (ν : κ → ℕ → ι → ℝ) (s : ι → EReal) (w : ι → κ → EReal)
    (hs : ∀ j, s j = (σ 0 j : EReal)) (hw : ∀ j d, w j d = (ν d 0 j : EReal)) (bm : EReal) (hbm : ∃ r : ℝ, bm = (r : EReal)) :
    RowInv σ ν 1 (max ⊥ bm) (Ideal.exp (⊥ - max ⊥ bm) * 0 + ∑ j, Ideal.exp (s j - max ⊥ bm))
      (fun d => Ideal.exp (⊥ - max ⊥ bm) * 0 + ∑ j, Ideal.exp (s j - max ⊥ bm) * w j d) := by
  obtain ⟨β, rfl⟩ := hbm
  rw [max_bot_left]
  refine ⟨β, rfl, ?_, fun d => ?_⟩
  · rw [← l_first σ β]
    exact congrArg₂ (· + ·) rfl (Finset.sum_congr rfl fun j _ => by rw [hs j])
  · rw [← acc_first σ (ν d) β]
    show Ideal.exp (⊥ - ↑β) * 0 + ∑ j, Ideal.exp (s j - ↑β) * w j d = _
    exact congrArg₂ (· + ·) rfl (Finset.sum_congr rfl fun j _ => by rw [hs j, hw j d])

/-- A later block: from the carried values after `n` blocks, against a real block maximum `bm`. -/
theorem rowInv_step {κ : Type*} (σ : ℕ → ι → ℝ) (ν : κ → ℕ → ι → ℝ) (n : ℕ) (mP lP : EReal) (aP : κ → EReal)
    (h : RowInv σ ν n mP lP aP) (s : ι → EReal) (w : ι → κ → EReal)
    (hs : ∀ j, s j = (σ n j : EReal)) (hw : ∀ j d, w j d = (ν d n j : EReal)) (bm : EReal) (hbm : ∃ r : ℝ, bm = (r : EReal)) :
    RowInv σ ν (n + 1) (max mP bm) (Ideal.exp (mP - max mP bm) * lP + ∑ j, Ideal.exp (s j - max mP bm))
      (fun d => Ideal.exp (mP - max mP bm) * aP d + ∑ j, Ideal.exp (s j - max mP bm) * w j d) := by
  obtain ⟨μ, rfl, rfl, ha⟩ := h
  obtain ⟨β, rfl⟩ := hbm
  rw [← coe_max]
  refine ⟨max μ β, rfl, ?_, fun d => ?_⟩
  · rw [← l_step σ n μ (max μ β)]
    exact congrArg₂ (· + ·) rfl (Finset.sum_congr rfl fun j _ => by rw [hs j])
  · rw [← acc_step σ (ν d) n μ (max μ β)]
    show Ideal.exp (↑μ - ↑(max μ β)) * aP d + ∑ j, Ideal.exp (s j - ↑(max μ β)) * w j d = _
    rw [ha d]
    exact congrArg₂ (· + ·) rfl (Finset.sum_congr rfl fun j _ => by rw [hs j, hw j d])

/-- The quotient of a row's numerator by its denominator is a real quotient. -/
theorem rowInv_quot [Nonempty ι] {κ : Type*} (σ : ℕ → ι → ℝ) (ν : κ → ℕ → ι → ℝ) (n : ℕ) (mv lv : EReal) (av : κ → EReal)
    (h : RowInv σ ν (n + 1) mv lv av) (d : κ) :
    ∃ μ : ℝ, Ideal.div (av d) lv = ((num σ (ν d) (n + 1) μ / den σ (n + 1) μ : ℝ) : EReal) := by
  obtain ⟨μ, _, rfl, ha⟩ := h
  exact ⟨μ, by rw [ha d, div_coe_coe _ (den_pos σ n μ).ne']⟩

/-! ## The quotient is the softmax-weighted sum, whatever the shift -/

/-- Numerator over denominator at one shift is the sum of the normalized weights at any other shift times the values. -/
theorem quotient_eq {J : Type*} [Fintype J] [Nonempty J] (s w : J → ℝ) (μ M : ℝ) :
    (∑ j, Real.exp (s j - μ) * w j) / (∑ j, Real.exp (s j - μ))
      = ∑ j, Real.exp (s j - M) / (∑ j', Real.exp (s j' - M)) * w j := by
  have hD : ∀ x : ℝ, (∑ j, Real.exp (s j - x)) ≠ 0 := fun x =>
    (Finset.sum_pos (fun j _ => Real.exp_pos _) Finset.univ_nonempty).ne'
  have e : ∀ j, Real.exp (s j - μ) = Real.exp (M - μ) * Real.exp (s j - M) := fun j => by
    rw [← Real.exp_add]; congr 1; ring
  have hN : (∑ j, Real.exp (s j - μ) * w j) = Real.exp (M - μ) * ∑ j, Real.exp (s j - M) * w j := by
    rw [Finset.mul_sum]; exact Finset.sum_congr rfl fun j _ => by rw [e j, mul_assoc]
  have hL : (∑ j, Real.exp (s j - μ)) = Real.exp (M - μ) * ∑ j, Real.exp (s j - M) := by
    rw [Finset.mul_sum]; exact Finset.sum_congr rfl fun j _ => e j
  rw [hN, hL, mul_div_mul_left _ _ (Real.exp_pos _).ne', Finset.sum_div]
  exact Finset.sum_congr rfl fun j _ => by rw [div_mul_eq_mul_div]

end Cert.Attn.Online

end
-- ==== Proof.Attention.lean ====
/-
  Scaled dot-product attention over the extended reals, one output entry at a time.

  For a batch `b`, a head `h` and a query row `i`, the score against key row `j` is
  `s j = ∑ e, (q[b,h,i,e] · c) · k[b,h,j,e]` with `c = 1/8` (the binary value of the program's literal), and the output
  entry at column `d` is `∑ j, (exp (s j - M) / (0 + ∑ j', exp (s j' - M))) · v[b,h,j,d]` for a shift `M`: the
  softmax weights of the row applied to the columns of `v`. For real scores and a real shift the value does not depend
  on the shift (numerator and denominator both carry the factor `exp (-M)`), which is what lets a running maximum
  stand in for the row's maximum.
-/
import Idealize.ShloMosaic.PureOps.Ideal
import Idealize.ShloMosaic.Lib.ValueIdx

noncomputable section

open scoped BigOperators

namespace Cert.Attn

open Idealize.ShloMosaic Idealize.ShloMosaic.ValueIdx

/-- The shape of `q`, `k`, `v` and of the result: batch 2, 16 heads, 2048 rows, 64 columns. -/
abbrev A4 : Shape := ⟨4, ![2, 16, 2048, 64]⟩

/-- The scale applied to `q`: the single-precision word of `0.125`, read as an extended real. -/
def scale : EReal := Ideal.ofBits .f32 0x3E000000#32

/-- The score of query row `i` against key row `j` in batch `b`, head `h`. -/
def score (q k : A4.Idx → EReal) (b : Fin 2) (h : Fin 16) (i j : Fin 2048) : EReal :=
  ∑ e : Fin 64, (q (ix4 b h i e) * scale) * k (ix4 b h j e)

/-- The attention output at `(b, h, i, d)` computed with the shift `M` under the exponentials. -/
def attn (q k v : A4.Idx → EReal) (M : EReal) (b : Fin 2) (h : Fin 16) (i : Fin 2048) (d : Fin 64) : EReal :=
  ∑ j : Fin 2048, Ideal.div (Ideal.exp (score q k b h i j - M)) (0 + ∑ j' : Fin 2048, Ideal.exp (score q k b h i j' - M))
    * v (ix4 b h j d)

/-- Every entry of an array is a real number. -/
def AllReal {s : Shape} (x : s.Idx → EReal) : Prop := ∀ i, ∃ r : ℝ, x i = (r : EReal)

end Cert.Attn

end
-- ==== Proof.RefAttention.lean ====
/-
  The reference program read at one result entry: it is scaled dot-product attention with a real shift.

  The program computes the scores `s = (q · c) · kᵀ` (contracting the last axes), the shift
  `M₀ = max(-∞, fold of max over the row's scores from -∞)`, the exponentials `e = exp (s - M₀)`, the row sum
  `L = 0 + ∑ e`, the weights `p = e / L`, and the output `p · v`. Read at `(b, h, i, d)` this is `attn q k v M₀ b h i d`.
  For real `q` and `k` every score is real, so the shift, a maximum over a nonempty finite family of reals, is real.
-/
import proofs.«158893_j3624952397975_2_alg».proof.Proof.Attention
import proofs.«158893_j3624952397975_2_alg».proof.Proof.Gen.ReferenceIdeal.Read

noncomputable section

open scoped BigOperators

namespace Cert.Attn

open Idealize.ShloMosaic Idealize.ShloMosaic.ValueIdx Cert.ReferenceIdeal

/-! ## Real numbers inside the extended reals -/

/-- The inclusion of the reals into the extended reals carries a finite sum to the finite sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl fun i _ => hg i⟩

/-- The maximum, from `-∞`, of a nonempty finite family of real numbers is a real number. -/
theorem fold_max_real {n : Nat} (hn : 0 < n) (f : Fin n → EReal) (hf : ∀ j, ∃ r : ℝ, f j = (r : EReal)) :
    ∃ r : ℝ, (Finset.univ : Finset (Fin n)).fold max ⊥ f = (r : EReal) := by
  have htop : (Finset.univ : Finset (Fin n)).fold max ⊥ f ≠ ⊤ := by
    refine ne_of_lt ((Finset.fold_max_lt _).2 ⟨bot_lt_top, fun x _ => ?_⟩)
    obtain ⟨r, hr⟩ := hf x
    rw [hr]; exact EReal.coe_lt_top r
  have hbot : (Finset.univ : Finset (Fin n)).fold max ⊥ f ≠ ⊥ := by
    refine ne_of_gt ((Finset.lt_fold_max _).2 (Or.inr ⟨⟨0, hn⟩, Finset.mem_univ _, ?_⟩))
    obtain ⟨r, hr⟩ := hf ⟨0, hn⟩
    rw [hr]; exact EReal.bot_lt_coe r
  exact ⟨_, (EReal.coe_toReal htop hbot).symm⟩

/-! ## The scale and the scores -/

/-- The scale is the real number `1/8`. -/
theorem scale_eq : scale = ((1 / 8 : ℝ) : EReal) := by
  simp [scale, Ideal.ofBits, Ideal.ieee, -EReal.coe_mul]
  norm_num

/-- The scale is a real number. -/
theorem scale_real : ∃ r : ℝ, scale = (r : EReal) := ⟨_, scale_eq⟩

/-- For real `q` and `k` every score is a real number: a finite sum of products of reals. -/
theorem score_real {q k : A4.Idx → EReal} (hq : AllReal q) (hk : AllReal k) (b : Fin 2) (h : Fin 16) (i j : Fin 2048) :
    ∃ r : ℝ, score q k b h i j = (r : EReal) := by
  obtain ⟨c, hc⟩ := scale_real
  unfold score
  refine sum_real _ _ fun e => ?_
  obtain ⟨x, hx⟩ := hq (ix4 b h i e)
  obtain ⟨y, hy⟩ := hk (ix4 b h j e)
  exact ⟨x * c * y, by rw [hx, hy, hc, EReal.coe_mul, EReal.coe_mul]⟩

/-! ## The reference's stages at coordinates -/

section Stages

variable (q k v : (⟨Cert.ReferenceIdeal.S2x16x2048x64, .f32⟩ : BufTy).Contents (Elt Ideal))

/-- The scaled query: each entry of `q` times the scale. -/
theorem ref_v1 (b : Fin 2) (h : Fin 16) (i : Fin 2048) (e : Fin 64) :
    Read.val_main_v1 (F := Ideal) q (ix4 b h i e) = q (ix4 b h i e) * scale := by
  rw [Read.val_main_v1_apply, Read.val_main_v0_apply, Read.val_main_cst_apply]
  rfl

/-- The first contraction is the score. -/
theorem ref_v2 (b : Fin 2) (h : Fin 16) (i j : Fin 2048) :
    Read.val_main_v2 (F := Ideal) q k (ix4 b h i j) = score q k b h i j := by
  rw [Read.val_main_v2_apply]
  unfold score
  refine Finset.sum_congr rfl fun e _ => ?_
  have el : Read.lidx_main_v2 (ix4 b h i j) e = ix4 b h i e := funext fun a => Fin.ext (by
    match a with
    | ⟨0, _⟩ => rfl
    | ⟨1, _⟩ => rfl
    | ⟨2, _⟩ => rfl
    | ⟨3, _⟩ => rfl)
  have er : Read.ridx_main_v2 (ix4 b h i j) e = ix4 b h j e := funext fun a => Fin.ext (by
    match a with
    | ⟨0, _⟩ => rfl
    | ⟨1, _⟩ => rfl
    | ⟨2, _⟩ => rfl
    | ⟨3, _⟩ => rfl)
  rw [el, er, ref_v1]

/-- The last axis of the score array is reduced onto the first three. -/
theorem reduces_last : Cert.ReferenceIdeal.S2x16x2048x2048.Reduces [3] Cert.ReferenceIdeal.S2x16x2048 := by decide

/-- The word of `-∞` is `⊥`. -/
theorem ofBits_neg_inf : Ideal.ofBits .f32 0xFF800000#32 = ⊥ := by simp [Ideal.ofBits, Ideal.ieee]

/-- The row maximum: the fold of `max` from `-∞` over the row's scores. -/
theorem ref_v3 (b : Fin 2) (h : Fin 16) (i : Fin 2048) :
    Read.val_main_v3 (F := Ideal) q k (ix3 b h i)
      = (Finset.univ : Finset (Fin 2048)).fold max ⊥ (fun j => score q k b h i j) := by
  unfold Read.val_main_v3
  refine (Host.reduce_eq_fold_single (f := FloatOps.maximumf (F := Ideal) (φ := .f32)) (x := Read.val_main_v2 (F := Ideal) q k)
    (init := Read.val_main_cst_0 (F := Ideal)) (h' := Gen.reducesTo_S2x16x2048x2048_S2x16x2048_d3) (h := reduces_last)
    (hu := Gen.h_S_) (j := ix3 b h i)).trans ?_
  have h0 : Read.val_main_cst_0 (F := Ideal) (Shape.Idx.first Gen.h_S_) = ⊥ := by
    rw [Read.val_main_cst_0_apply]; exact ofBits_neg_inf
  rw [h0]
  refine Finset.fold_congr fun j _ => ?_
  have el : reduces_last.lift (ix3 b h i) j = ix4 b h i j := funext fun a => Fin.ext (by
    match a with
    | ⟨0, _⟩ => rfl
    | ⟨1, _⟩ => rfl
    | ⟨2, _⟩ => rfl
    | ⟨3, _⟩ => rfl)
  exact (congrArg (Read.val_main_v2 (F := Ideal) q k) el).trans (ref_v2 q k b h i j)

/-- The shift: the maximum of `-∞` and the row maximum, which is the row maximum. -/
theorem ref_v5 (b : Fin 2) (h : Fin 16) (i : Fin 2048) :
    Read.val_main_v5 (F := Ideal) q k (ix3 b h i)
      = (Finset.univ : Finset (Fin 2048)).fold max ⊥ (fun j => score q k b h i j) := by
  rw [Read.val_main_v5_apply, Read.val_main_v4_apply, Read.val_main_cst_1_apply, ref_v3]
  show max (Ideal.ofBits .f32 0xFF800000#32) _ = _
  rw [ofBits_neg_inf]
  exact max_bot_left _

/-- For real `q` and `k` the shift is a real number. -/
theorem ref_shift_real (hq : AllReal (s := A4) q) (hk : AllReal (s := A4) k) (b : Fin 2) (h : Fin 16) (i : Fin 2048) :
    ∃ M : ℝ, Read.val_main_v5 (F := Ideal) q k (ix3 b h i) = (M : EReal) := by
  rw [ref_v5]
  exact fold_max_real (by decide) _ fun j => score_real hq hk b h i j

/-- The shift, broadcast along the row. -/
theorem ref_v7 (b : Fin 2) (h : Fin 16) (i j : Fin 2048) :
    Read.val_main_v7 (F := Ideal) q k (ix4 b h i j) = Read.val_main_v5 (F := Ideal) q k (ix3 b h i) := by
  rw [Read.val_main_v7_apply, Read.val_main_v6_apply]
  exact congrArg _ (funext fun a => Fin.ext (by
    match a with
    | ⟨0, _⟩ => rfl
    | ⟨1, _⟩ => rfl
    | ⟨2, _⟩ => rfl))

/-- The exponential of the shifted score. -/
theorem ref_v9 (b : Fin 2) (h : Fin 16) (i j : Fin 2048) :
    Read.val_main_v9 (F := Ideal) q k (ix4 b h i j)
      = Ideal.exp (score q k b h i j - Read.val_main_v5 (F := Ideal) q k (ix3 b h i)) := by
  rw [Read.val_main_v9_apply, Read.val_main_v8_apply, ref_v2, ref_v7]
  rfl

/-- The row sum of the exponentials, from zero. -/
theorem ref_v10 (b : Fin 2) (h : Fin 16) (i : Fin 2048) :
    Read.val_main_v10 (F := Ideal) q k (ix3 b h i)
      = 0 + ∑ j' : Fin 2048, Ideal.exp (score q k b h i j' - Read.val_main_v5 (F := Ideal) q k (ix3 b h i)) := by
  rw [Read.val_main_v10_apply, Read.val_main_cst_2_apply, Ideal.ofBits_def, Ideal.ofBits_zero_f32]
  refine congrArg (0 + ·) (Finset.sum_congr rfl fun j' _ => ?_)
  have el : Read.idx_main_v10 (ix3 b h i) j' = ix4 b h i j' := funext fun a => Fin.ext (by
    match a with
    | ⟨0, _⟩ => rfl
    | ⟨1, _⟩ => rfl
    | ⟨2, _⟩ => rfl
    | ⟨3, _⟩ => rfl)
  rw [el, ref_v9]

/-- The row sum, broadcast along the row. -/
theorem ref_v12 (b : Fin 2) (h : Fin 16) (i j : Fin 2048) :
    Read.val_main_v12 (F := Ideal) q k (ix4 b h i j) = Read.val_main_v10 (F := Ideal) q k (ix3 b h i) := by
  rw [Read.val_main_v12_apply, Read.val_main_v11_apply]
  exact congrArg _ (funext fun a => Fin.ext (by
    match a with
    | ⟨0, _⟩ => rfl
    | ⟨1, _⟩ => rfl
    | ⟨2, _⟩ => rfl))

/-- The softmax weight: the exponential over the row sum. -/
theorem ref_v13 (b : Fin 2) (h : Fin 16) (i j : Fin 2048) :
    Read.val_main_v13 (F := Ideal) q k (ix4 b h i j)
      = Ideal.div (Ideal.exp (score q k b h i j - Read.val_main_v5 (F := Ideal) q k (ix3 b h i)))
          (0 + ∑ j' : Fin 2048, Ideal.exp (score q k b h i j' - Read.val_main_v5 (F := Ideal) q k (ix3 b h i))) := by
  rw [Read.val_main_v13_apply, ref_v9, ref_v12, ref_v10]
  rfl

/-- The reference's result entry is the attention output computed with the reference's shift. -/
theorem ref_apply_shift (b : Fin 2) (h : Fin 16) (i : Fin 2048) (d : Fin 64) :
    Read.val_main_v14 (F := Ideal) q k v (ix4 b h i d)
      = attn q k v (Read.val_main_v5 (F := Ideal) q k (ix3 b h i)) b h i d := by
  rw [Read.val_main_v14_apply]
  unfold attn
  refine Finset.sum_congr rfl fun j _ => ?_
  have el : Read.lidx_main_v14 (ix4 b h i d) j = ix4 b h i j := funext fun a => Fin.ext (by
    match a with
    | ⟨0, _⟩ => rfl
    | ⟨1, _⟩ => rfl
    | ⟨2, _⟩ => rfl
    | ⟨3, _⟩ => rfl)
  have er : Read.ridx_main_v14 (ix4 b h i d) j = ix4 b h j d := funext fun a => Fin.ext (by
    match a with
    | ⟨0, _⟩ => rfl
    | ⟨1, _⟩ => rfl
    | ⟨2, _⟩ => rfl
    | ⟨3, _⟩ => rfl)
  rw [el, er, ref_v13]

/-- THE REFERENCE IS ATTENTION WITH A REAL SHIFT: for real `q` and `k` the reference's result entry at `(b, h, i, d)` is
    the attention output computed with some real shift under the exponentials (the row's maximal score). -/
theorem ref_apply (hq : AllReal (s := A4) q) (hk : AllReal (s := A4) k) (b : Fin 2) (h : Fin 16) (i : Fin 2048) (d : Fin 64) :
    ∃ M : ℝ, Read.val_main_v14 (F := Ideal) q k v (ix4 b h i d) = attn q k v (M : EReal) b h i d := by
  obtain ⟨M, hM⟩ := ref_shift_real q k hq hk b h i
  exact ⟨M, by rw [ref_apply_shift, hM]⟩

end Stages

end Cert.Attn

end
-- ==== Proof.Carry.lean ====
/-
  The carried arrays along the key axis. Grid point n = 4 g + ki works on the 1024 query rows of group g (head
  bh = g / 2, query block qi = g % 2) against key block ki. With σ the real scores of a row of the group against all
  2048 keys, cut in four blocks of 512, and ν the values, the three carried arrays after point n hold, for every row, a
  real shift μ, the partial denominator ∑ exp (σ - μ) over the blocks 0..ki and the partial numerators
  ∑ exp (σ - μ) · ν: by induction on the point — ki = 0 starts from (-∞, 0, 0), every later point is one step of the
  recurrence from what the point before left, whatever the two shifts are.
-/
import proofs.«158893_j3624952397975_2_alg».proof.Proof.Step
import proofs.«158893_j3624952397975_2_alg».proof.Proof.OnlineSoftmax
import proofs.«158893_j3624952397975_2_alg».proof.Proof.RefAttention

set_option maxRecDepth 16384

noncomputable section

open scoped BigOperators

namespace Cert.KernelIdeal.Carry

open Idealize.ShloMosaic Idealize.ShloMosaic.ValueIdx Idealize.ShloMosaic.TcCoe Idealize.SL.Sem
open Cert.KernelIdeal Cert.KernelIdeal.Gen Cert.KernelIdeal.Pieces Cert.KernelIdeal.Step Cert.Attn Cert.Attn.Online

/-! ## What the first key block starts from -/

theorem pay4_apply (j : S1024x1.Idx) : k0_pay4 (F := Ideal) j = ⊥ := by
  unfold k0_pay4
  exact (congrFun (shapeCast_self _ _) j).trans ofBits_neg_inf

theorem pay5_apply (j : S1024x1.Idx) : k0_pay5 (F := Ideal) j = 0 := by
  unfold k0_pay5
  exact (congrFun (shapeCast_self _ _) j).trans Ideal.ofBits_zero_f32

theorem pay6_apply (j : S1024x64.Idx) : k0_pay6 (F := Ideal) j = 0 := by
  unfold k0_pay6
  exact (congrFun (shapeCast_self _ _) j).trans Ideal.ofBits_zero_f32

/-! ## One grid point, over all rows of the block -/

/-- The first key block: the carried arrays start from (-∞, 0, 0). -/
theorem first_rows (σ : Fin 1024 → ℕ → Fin 512 → ℝ) (ν : Fin 64 → ℕ → Fin 512 → ℝ)
    (x0 : Vec Ideal S1x1024x64 .bf16) (x1 x2 : Vec Ideal S1x512x64 .bf16)
    (hs : ∀ r j, sc x0 x1 r j = (σ r 0 j : EReal)) (hv : ∀ j d, x2 (ix3 0 j d) = (ν d 0 j : EReal)) (r : Fin 1024) :
    RowInv (σ r) ν 1 (newM (F := Ideal) x0 x1 (k0_pay4 (F := Ideal)) (ix2 r 0))
      (newL (F := Ideal) x0 x1 (k0_pay4 (F := Ideal)) (k0_pay5 (F := Ideal)) (ix2 r 0))
      (fun d => newAcc (F := Ideal) x0 x1 x2 (k0_pay4 (F := Ideal)) (k0_pay6 (F := Ideal)) (ix2 r d)) := by
  rw [newM_apply, newL_apply]
  simp only [newAcc_apply]
  unfold mx
  rw [pay4_apply, pay5_apply, ofBits_neg_inf]
  simp only [pay6_apply]
  exact rowInv_first (σ r) ν (fun j => sc x0 x1 r j) (fun j d => x2 (ix3 0 j d)) (hs r) hv _
    (fold_max_real (by norm_num) _ (fun j => ⟨_, hs r j⟩))

/-- A later key block: one step of the recurrence from the previous contents. -/
theorem step_rows (σ : Fin 1024 → ℕ → Fin 512 → ℝ) (ν : Fin 64 → ℕ → Fin 512 → ℝ) (n : ℕ)
    (x0 : Vec Ideal S1x1024x64 .bf16) (x1 x2 : Vec Ideal S1x512x64 .bf16) (xs0 xs1 : Vec Ideal S1024x1 .f32) (xs2 : Vec Ideal S1024x64 .f32)
    (hs : ∀ r j, sc x0 x1 r j = (σ r n j : EReal)) (hv : ∀ j d, x2 (ix3 0 j d) = (ν d n j : EReal))
    (hprev : ∀ r, RowInv (σ r) ν n (xs0 (ix2 r 0)) (xs1 (ix2 r 0)) (fun d => xs2 (ix2 r d))) (r : Fin 1024) :
    RowInv (σ r) ν (n + 1) (newM (F := Ideal) x0 x1 xs0 (ix2 r 0)) (newL (F := Ideal) x0 x1 xs0 xs1 (ix2 r 0))
      (fun d => newAcc (F := Ideal) x0 x1 x2 xs0 xs2 (ix2 r d)) := by
  rw [newM_apply, newL_apply]
  simp only [newAcc_apply]
  unfold mx
  rw [ofBits_neg_inf]
  exact rowInv_step (σ r) ν n _ _ _ (hprev r) (fun j => sc x0 x1 r j) (fun j d => x2 (ix3 0 j d)) (hs r) hv _
    (fold_max_real (by norm_num) _ (fun j => ⟨_, hs r j⟩))

/-! ## All grid points -/

variable (m : (ℓ : Loc nD τ sig) → Buf (Elt Ideal) ℓ) (c : Dev nD)

/-- The carried arrays after every grid point, given what the point's blocks hold: the scores of its rows against its
    key block are the real scores σ of the point's group at block `n % 4`, and its value block is ν there. -/
theorem carry (σ : ℕ → Fin 1024 → ℕ → Fin 512 → ℝ) (ν : ℕ → Fin 64 → ℕ → Fin 512 → ℝ)
    (hS : ∀ (t : Fin cfg0.N) (r : Fin 1024) (j : Fin 512),
      sc (iblk m c 0 t) (iblk m c 1 t) r j = (σ (t.val / 4) r (t.val % 4) j : EReal))
    (hV : ∀ (t : Fin cfg0.N) (j : Fin 512) (d : Fin 64),
      (iblk m c 2 t : Vec Ideal S1x512x64 .bf16) (ix3 0 j d) = (ν (t.val / 4) d (t.val % 4) j : EReal)) :
    ∀ (n : ℕ) (hn : n < cfg0.N) (r : Fin 1024),
      RowInv (σ (n / 4) r) (ν (n / 4)) (n % 4 + 1) ((outsAt0 m c n hn).2.1 (ix2 r 0)) ((outsAt0 m c n hn).2.2.1 (ix2 r 0))
        (fun d => (outsAt0 m c n hn).2.2.2 (ix2 r d))
  | 0, hn, r => by
    have h0 : (⟨0, hn⟩ : Fin cfg0.N).val % 4 = 0 := rfl
    have h1 : ¬(⟨0, hn⟩ : Fin cfg0.N).val % 4 = 3 := (show ¬(0 % 4 = 3) from by decide)
    rw [outsAt0_A m c ⟨0, hn⟩ h0 h1]
    dsimp only
    rw [sout_A_0 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩),
      sout_A_1 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩),
      sout_A_2 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩)]
    have hS' := hS ⟨0, hn⟩
    have hV' := hV ⟨0, hn⟩
    dsimp only at hS' hV'
    simp only [Nat.zero_div, Nat.zero_mod] at hS' hV'
    exact first_rows (σ 0) (ν 0) (iblk m c 0 ⟨0, hn⟩) (iblk m c 1 ⟨0, hn⟩) (iblk m c 2 ⟨0, hn⟩) hS' hV' r
  | n + 1, hn, r => by
    have hS' := hS ⟨n + 1, hn⟩
    have hV' := hV ⟨n + 1, hn⟩
    dsimp only at hS' hV'
    by_cases h0 : (n + 1) % 4 = 0
    · have h1 : ¬(n + 1) % 4 = 3 := by omega
      rw [outsAt0_A m c ⟨n + 1, hn⟩ h0 h1]
      dsimp only
      rw [sout_A_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout_A_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout_A_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)]
      rw [h0] at hS' hV' ⊢
      exact first_rows (σ ((n + 1) / 4)) (ν ((n + 1) / 4)) (iblk m c 0 ⟨n + 1, hn⟩) (iblk m c 1 ⟨n + 1, hn⟩) (iblk m c 2 ⟨n + 1, hn⟩) hS' hV' r
    · have hg : n / 4 = (n + 1) / 4 := by omega
      have hk : n % 4 + 1 = (n + 1) % 4 := by omega
      have IH : ∀ r', RowInv (σ ((n + 1) / 4) r') (ν ((n + 1) / 4)) ((n + 1) % 4)
          ((outsAt0 m c n (Nat.lt_of_succ_lt hn)).2.1 (ix2 r' 0)) ((outsAt0 m c n (Nat.lt_of_succ_lt hn)).2.2.1 (ix2 r' 0))
          (fun d => (outsAt0 m c n (Nat.lt_of_succ_lt hn)).2.2.2 (ix2 r' d)) := fun r' => by
        have := carry σ ν hS hV n (Nat.lt_of_succ_lt hn) r'
        rw [hg, hk] at this
        exact this
      by_cases h1 : (n + 1) % 4 = 3
      · rw [outsAt0_C m c ⟨n + 1, hn⟩ h0 h1]
        dsimp only
        rw [sout_C_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2,
          sout_C_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2,
          sout_C_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2]
        exact step_rows (σ ((n + 1) / 4)) (ν ((n + 1) / 4)) ((n + 1) % 4) (iblk m c 0 ⟨n + 1, hn⟩) (iblk m c 1 ⟨n + 1, hn⟩) (iblk m c 2 ⟨n + 1, hn⟩) _ _ _ hS' hV' IH r
      · rw [outsAt0_B m c ⟨n + 1, hn⟩ h0 h1]
        dsimp only
        rw [sout_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2,
          sout_B_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2,
          sout_B_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2]
        exact step_rows (σ ((n + 1) / 4)) (ν ((n + 1) / 4)) ((n + 1) % 4) (iblk m c 0 ⟨n + 1, hn⟩) (iblk m c 1 ⟨n + 1, hn⟩) (iblk m c 2 ⟨n + 1, hn⟩) _ _ _ hS' hV' IH r

end Cert.KernelIdeal.Carry

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.SoftmaxValue.lean ====
/-
  The value both programs compute for one output entry: the softmax-weighted sum of a column of values,
    smx s w = (∑ p, exp (s p) · w p) / ∑ p, exp (s p)
  for a row of real scores `s` and a column of real values `w` over the 2048 keys. The numerator and denominator
  accumulated over four consecutive blocks of 512 keys at any real shift have this quotient: a sum over 2048 = 4 · 512
  indices is the sum of its four block sums, and the common factor `exp (-shift)` cancels.
-/
import proofs.«158893_j3624952397975_2_alg».proof.Proof.OnlineSoftmax
import proofs.«158893_j3624952397975_2_alg».proof.Proof.LibBlockSumGen

noncomputable section

open scoped BigOperators

namespace Cert.Attn.Online

/-- The softmax-weighted sum of the values `w` for the scores `s`. -/
def smx {J : Type*} [Fintype J] (s w : J → ℝ) : ℝ := (∑ p, Real.exp (s p) * w p) / ∑ p, Real.exp (s p)

/-- Numerator over denominator at any shift is `smx`. -/
theorem quotient_eq_smx {J : Type*} [Fintype J] [Nonempty J] (s w : J → ℝ) (μ : ℝ) :
    (∑ j, Real.exp (s j - μ) * w j) / (∑ j, Real.exp (s j - μ)) = smx s w := by
  rw [quotient_eq s w μ 0]
  simp only [sub_zero]
  unfold smx
  rw [Finset.sum_div]
  exact Finset.sum_congr rfl fun j _ => by rw [div_mul_eq_mul_div]

/-- The normalized weights at any shift, applied to the values, give `smx`. -/
theorem weights_eq_smx {J : Type*} [Fintype J] [Nonempty J] (s w : J → ℝ) (M : ℝ) :
    ∑ j, Real.exp (s j - M) / (∑ j', Real.exp (s j' - M)) * w j = smx s w := by
  rw [← quotient_eq s w 0 M]
  simp only [sub_zero]
  rfl

/-- A sum over four blocks of 512 consecutive indices is the sum over the 2048 indices. -/
theorem range_blocks (g : ℕ → ℝ) :
    ∑ kb ∈ Finset.range 4, ∑ jj : Fin 512, g (512 * kb + jj.val) = ∑ p : Fin 2048, g p.val := by
  rw [Finset.sum_range]
  exact (Cert.LibBlockSumGen.sum_blocks (n := 2048) (K := 4) (B := 512) rfl (fun p => g p.val)).symm

/-- Four blocks of 512 keys: the accumulated numerator over the accumulated denominator, at any shift, is `smx`. -/
theorem blocks_quot (s w : ℕ → ℝ) (μ : ℝ) :
    num (fun kb (jj : Fin 512) => s (512 * kb + jj.val)) (fun kb jj => w (512 * kb + jj.val)) 4 μ
        / den (fun kb (jj : Fin 512) => s (512 * kb + jj.val)) 4 μ
      = smx (fun p : Fin 2048 => s p.val) (fun p => w p.val) := by
  haveI : Nonempty (Fin 2048) := ⟨⟨0, by norm_num⟩⟩
  unfold num den
  rw [range_blocks (fun n => Real.exp (s n - μ) * w n), range_blocks (fun n => Real.exp (s n - μ))]
  exact quotient_eq_smx (fun p : Fin 2048 => s p.val) (fun p => w p.val) μ

end Cert.Attn.Online

end
-- ==== Proof.Rows.lean ====
/-
  Which rows a grid point works on. The 256 grid points are n = 4 g + ki, with g = 2 bh + qi the group (head
  bh = 16 b + h of batch b, query block qi) and ki the key block. Group g, row r of the block is query row
  1024 (g % 2) + r of batch (g / 32), head (g / 2) % 16; key block kb, row j of the block is key row 512 kb + j.
  The real scores of such a query row against the keys, and the real values of a column, are read off q, k, v.
-/
import proofs.«158893_j3624952397975_2_alg».proof.Proof.Attention

noncomputable section

namespace Cert.Attn

open Idealize.ShloMosaic Idealize.ShloMosaic.ValueIdx

/-- The batch of group `g`. -/
def fb (g : ℕ) : Fin 2 := ⟨(g / 32) % 2, Nat.mod_lt _ (by norm_num)⟩
/-- The head of group `g`. -/
def fh (g : ℕ) : Fin 16 := ⟨(g / 2) % 16, Nat.mod_lt _ (by norm_num)⟩
/-- The query row of row `r` of group `g`'s block. -/
def fi (g : ℕ) (r : Fin 1024) : Fin 2048 := ⟨(1024 * (g % 2) + r.val) % 2048, Nat.mod_lt _ (by norm_num)⟩
/-- The key row of row `j` of key block `kb`. -/
def fj (kb : ℕ) (j : Fin 512) : Fin 2048 := ⟨(512 * kb + j.val) % 2048, Nat.mod_lt _ (by norm_num)⟩

/-- The real score of row `r` of group `g` against row `j` of key block `kb`. -/
def sigma (q k : A4.Idx → EReal) (g : ℕ) (r : Fin 1024) (kb : ℕ) (j : Fin 512) : ℝ :=
  (score q k (fb g) (fh g) (fi g r) (fj kb j)).toReal

/-- The real value at row `j` of key block `kb`, column `d`, in group `g`'s head. -/
def nuu (v : A4.Idx → EReal) (g : ℕ) (d : Fin 64) (kb : ℕ) (j : Fin 512) : ℝ :=
  (v (ix4 (fb g) (fh g) (fj kb j) d)).toReal

end Cert.Attn

end
-- ==== Proof.Output.lean ====
/-
  From the carried arrays to the result array. At the last key block of a group (ki = 3) the body writes the output
  block: numerator over denominator, row by row. By the recurrence these are the numerator and denominator over all four
  key blocks at some real shift, so every entry is the softmax-weighted sum of a column of `v` for a row's scores —
  the array R (bh, i, d) below. Every index of the [32, 2048, 64] result lies in the block written back at the point
  (bh, i / 1024, 3), so the array after the run is R.
-/
import proofs.«158893_j3624952397975_2_alg».proof.Proof.Carry
import proofs.«158893_j3624952397975_2_alg».proof.Proof.SoftmaxValue
import proofs.«158893_j3624952397975_2_alg».proof.Proof.Rows
import Idealize.ShloMosaic.Lib.Pipeline.Value

set_option maxRecDepth 16384

noncomputable section

open scoped BigOperators

namespace Cert.KernelIdeal.Output

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Pieces Cert.KernelIdeal.Step Cert.KernelIdeal.Carry Cert.Attn Cert.Attn.Online

variable (m : (ℓ : Loc nD τ sig) → Buf (Elt Ideal) ℓ) (c : Dev nD)

/-- At the last key block the output block is the quotient of what the point leaves in the carried arrays. -/
theorem out_eq (t : Fin cfg0.N) (h0 : ¬t.val % 4 = 0) (h1 : t.val % 4 = 3) :
    (outsAt0 m c t.val t.isLt).1
      = k0_pay3 (F := Ideal) (outsAt0 m c t.val t.isLt).2.2.2 (outsAt0 m c t.val t.isLt).2.2.1 := by
  rw [outsAt0_C m c t h0 h1]
  dsimp only
  rw [out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- The batch and the head of a flattened head index. -/
def gb (bh : Fin 32) : Fin 2 := ⟨bh.val / 16, by have := bh.isLt; omega⟩
def gh (bh : Fin 32) : Fin 16 := ⟨bh.val % 16, Nat.mod_lt _ (by norm_num)⟩

/-- The result array on [32, 2048, 64]: entry (bh, i, d) is the softmax-weighted sum of column `d` of `v` for the scores
    of query row `i`, in batch bh / 16, head bh % 16. -/
def R (q k v : A4.Idx → EReal) (bh : Fin 32) (i : Fin 2048) (d : Fin 64) : EReal :=
  ((smx (fun p : Fin 2048 => (score q k (gb bh) (gh bh) i p).toReal) (fun p => (v (ix4 (gb bh) (gh bh) p d)).toReal) : ℝ) : EReal)

/-- The same as a function of the array index. -/
def R3 (q k v : A4.Idx → EReal) : S32x2048x64.Idx → EReal := fun x => R q k v (x 0) (x 1) (x 2)

/-- The output block's entry (r, d) at the last key block of group `t / 4`. -/
theorem out_apply (q k v : A4.Idx → EReal)
    (hS : ∀ (t : Fin cfg0.N) (r : Fin 1024) (j : Fin 512),
      sc (iblk m c 0 t) (iblk m c 1 t) r j = ((sigma q k (t.val / 4) r (t.val % 4) j : ℝ) : EReal))
    (hV : ∀ (t : Fin cfg0.N) (j : Fin 512) (d : Fin 64),
      (iblk m c 2 t : Vec Ideal S1x512x64 .bf16) (ix3 0 j d) = ((nuu v (t.val / 4) d (t.val % 4) j : ℝ) : EReal))
    (t : Fin cfg0.N) (h3 : t.val % 4 = 3) (r : Fin 1024) (d : Fin 64) :
    (outsAt0 m c t.val t.isLt).1 (ix3 0 r d)
      = ((smx (fun p : Fin 2048 => (score q k (fb (t.val / 4)) (fh (t.val / 4)) (fi (t.val / 4) r) p).toReal)
          (fun p => (v (ix4 (fb (t.val / 4)) (fh (t.val / 4)) p d)).toReal) : ℝ) : EReal) := by
  rw [out_eq m c t (by omega) h3, pay3_apply]
  have hI := carry m c (sigma q k) (nuu v) hS hV t.val t.isLt r
  rw [h3] at hI
  obtain ⟨μ, hμ⟩ := rowInv_quot (ι := Fin 512) (sigma q k (t.val / 4) r) (nuu v (t.val / 4)) 3 _ _ _ hI d
  rw [hμ]
  refine congrArg (fun x : ℝ => (x : EReal)) ?_
  have e := blocks_quot
    (fun n => (score q k (fb (t.val / 4)) (fh (t.val / 4)) (fi (t.val / 4) r) ⟨n % 2048, Nat.mod_lt _ (by norm_num)⟩).toReal)
    (fun n => (v (ix4 (fb (t.val / 4)) (fh (t.val / 4)) ⟨n % 2048, Nat.mod_lt _ (by norm_num)⟩ d)).toReal) μ
  refine e.trans ?_
  have hp : ∀ p : Fin 2048, (⟨p.val % 2048, Nat.mod_lt _ (by norm_num)⟩ : Fin 2048) = p := fun p =>
    Fin.ext (Nat.mod_eq_of_lt p.isLt)
  simp only [hp]

/-- The output window's block indices, decided over the grid: block (t / 8, (t / 4) % 2, 0). -/
theorem idx3 : ∀ t : Fin cfg0.N, win0_3.index t (0 : Fin 3) = t.val / 8 ∧ win0_3.index t (1 : Fin 3) = (t.val / 4) % 2
    ∧ win0_3.index t (2 : Fin 3) = 0 :=
  (by decide +kernel : ∀ t : Fin grid0.N, _)

/-- What the last point of a group writes back is its block of `R3`. -/
theorem flushed_eq (q k v : A4.Idx → EReal)
    (hS : ∀ (t : Fin cfg0.N) (r : Fin 1024) (j : Fin 512),
      sc (iblk m c 0 t) (iblk m c 1 t) r j = ((sigma q k (t.val / 4) r (t.val % 4) j : ℝ) : EReal))
    (hV : ∀ (t : Fin cfg0.N) (j : Fin 512) (d : Fin 64),
      (iblk m c 2 t : Vec Ideal S1x512x64 .bf16) (ix3 0 j d) = ((nuu v (t.val / 4) d (t.val % 4) j : ℝ) : EReal))
    (t : Fin cfg0.N) (hf : (cfg0.win 3).flush t = true) :
    (dats m 0 c).flushed 3 t = ((cfg0.win 3).blk t).view.read (Elt Ideal) (R3 q k v) := by
  have h3 : t.val % 4 = 3 := (flush0_3 t).mp hf
  have hN : t.val < 256 := lt_of_lt_of_eq t.isLt N_0
  obtain ⟨e0, e1, e2⟩ := idx3 t
  show (cfg0.win 3).cut (grid0.coords t) ((dats m 0 c).after 3 t) = _
  rw [after0_3]
  funext y
  obtain ⟨z, r, d, rfl⟩ : ∃ (z : Fin 1) (r : Fin 1024) (d : Fin 64), y = ix3 z r d := ⟨y 0, y 1, y 2, eq_ix3 y⟩
  obtain rfl : z = 0 := Subsingleton.elim _ _
  have hemb : ((cfg0.win 3).blk t).view.emb (ix3 (0 : Fin 1) r d)
      = ix3 (⟨t.val / 8, by omega⟩ : Fin 32) (⟨1024 * ((t.val / 4) % 2) + r.val, by omega⟩ : Fin 2048) d := by
    funext a; apply Fin.ext
    match a with
    | ⟨0, _⟩ => show win0_3.index t (0 : Fin 3) * 1 + 1 * 0 = t.val / 8; omega
    | ⟨1, _⟩ => show win0_3.index t (1 : Fin 3) * 1024 + 1 * r.val = 1024 * ((t.val / 4) % 2) + r.val; omega
    | ⟨2, _⟩ => show win0_3.index t (2 : Fin 3) * 64 + 1 * d.val = d.val; omega
  show (outsAt0 m c t.val t.isLt).1 (ix3 0 r d) = R3 q k v (((cfg0.win 3).blk t).view.emb (ix3 (0 : Fin 1) r d))
  rw [hemb, out_apply m c q k v hS hV t h3 r d]
  show _ = R q k v (⟨t.val / 8, by omega⟩ : Fin 32) (⟨1024 * ((t.val / 4) % 2) + r.val, by omega⟩ : Fin 2048) d
  unfold R
  have hb : gb (⟨t.val / 8, by omega⟩ : Fin 32) = fb (t.val / 4) := Fin.ext (by simp only [gb, fb]; omega)
  have hh : gh (⟨t.val / 8, by omega⟩ : Fin 32) = fh (t.val / 4) := Fin.ext (by simp only [gh, fh]; omega)
  have hi : (⟨1024 * ((t.val / 4) % 2) + r.val, by omega⟩ : Fin 2048) = fi (t.val / 4) r := Fin.ext (by simp only [fi]; omega)
  rw [hb, hh, hi]

/-- Every index of the result lies in the block written back at the last point of its group. -/
theorem cover (x : S32x2048x64.Idx) :
    ∃ t : Fin cfg0.N, (cfg0.win 3).flush t = true ∧ x ∈ ((cfg0.win 3).blk t).view.set := by
  have h0 : (x 0).val < 32 := (x 0).isLt
  have h1 : (x 1).val < 2048 := (x 1).isLt
  have h2 : (x 2).val < 64 := (x 2).isLt
  have hN : cfg0.N = 256 := N_0
  have hlt : 8 * (x 0).val + 4 * ((x 1).val / 1024) + 3 < cfg0.N := by rw [hN]; omega
  refine ⟨⟨8 * (x 0).val + 4 * ((x 1).val / 1024) + 3, hlt⟩, (flush0_3 _).mpr (by show (8 * (x 0).val + 4 * ((x 1).val / 1024) + 3) % 4 = 3; omega), ?_⟩
  obtain ⟨e0, e1, e2⟩ := idx3 ⟨8 * (x 0).val + 4 * ((x 1).val / 1024) + 3, hlt⟩
  have ev : (⟨8 * (x 0).val + 4 * ((x 1).val / 1024) + 3, hlt⟩ : Fin cfg0.N).val = 8 * (x 0).val + 4 * ((x 1).val / 1024) + 3 := rfl
  rw [ev] at e0 e1
  show x ∈ ((View.whole main_v8).slice (win0_3.rect ⟨8 * (x 0).val + 4 * ((x 1).val / 1024) + 3, hlt⟩)).set
  rw [View.set_slice_whole, Rect.mem_set_unit]
  intro a
  match a with
  | ⟨0, _⟩ =>
    show win0_3.index ⟨8 * (x 0).val + 4 * ((x 1).val / 1024) + 3, hlt⟩ (0 : Fin 3) * 1 ≤ (x 0).val
      ∧ (x 0).val < win0_3.index ⟨8 * (x 0).val + 4 * ((x 1).val / 1024) + 3, hlt⟩ (0 : Fin 3) * 1 + 1
    omega
  | ⟨1, _⟩ =>
    show win0_3.index ⟨8 * (x 0).val + 4 * ((x 1).val / 1024) + 3, hlt⟩ (1 : Fin 3) * 1024 ≤ (x 1).val
      ∧ (x 1).val < win0_3.index ⟨8 * (x 0).val + 4 * ((x 1).val / 1024) + 3, hlt⟩ (1 : Fin 3) * 1024 + 1024
    omega
  | ⟨2, _⟩ =>
    show win0_3.index ⟨8 * (x 0).val + 4 * ((x 1).val / 1024) + 3, hlt⟩ (2 : Fin 3) * 64 ≤ (x 2).val
      ∧ (x 2).val < win0_3.index ⟨8 * (x 0).val + 4 * ((x 1).val / 1024) + 3, hlt⟩ (2 : Fin 3) * 64 + 64
    omega

/-- The result array after the run. -/
theorem final (q k v : A4.Idx → EReal)
    (hS : ∀ (t : Fin cfg0.N) (r : Fin 1024) (j : Fin 512),
      sc (iblk m c 0 t) (iblk m c 1 t) r j = ((sigma q k (t.val / 4) r (t.val % 4) j : ℝ) : EReal))
    (hV : ∀ (t : Fin cfg0.N) (j : Fin 512) (d : Fin 64),
      (iblk m c 2 t : Vec Ideal S1x512x64 .bf16) (ix3 0 j d) = ((nuu v (t.val / 4) d (t.val % 4) j : ℝ) : EReal)) :
    (dats m 0 c).arrAt 3 cfg0.N = R3 q k v :=
  (dats m 0 c).arrAt_eq_of_cover 3 (R3 q k v) (fun t hf => flushed_eq m c q k v hS hV t hf) (cover)

end Cert.KernelIdeal.Output

end
-- ==== Proof.HostGlue.lean ====
/-
  The host operations around the kernel, read at coordinates.

  Before the kernel the program flattens the batch and head axes of `q`, `k`, `v` into one axis of extent 32 (entry
  `(b, h, i, e)` goes to `(16·b + h, i, e)`: both are the same position in row-major order), multiplies `q` by the scale,
  and changes the format of the three (the identity on extended reals). After the kernel it splits the first axis of
  the result back into batch and head.
-/
import proofs.«158893_j3624952397975_2_alg».proof.Proof.Gen.KernelIdeal.Frame
import proofs.«158893_j3624952397975_2_alg».proof.Proof.Attention
import Idealize.ShloMosaic.Lib.StableHlo.Run
import Idealize.ShloMosaic.Lib.Pipeline.Value
import Idealize.ShloMosaic.Lib.ValueIdx

set_option maxRecDepth 16384

noncomputable section

namespace Cert.KernelIdeal.Glue

open Idealize.ShloMosaic Idealize.ShloMosaic.TcCoe Idealize.ShloMosaic.ValueIdx Idealize.ShloMosaic.StableHlo
open Cert.KernelIdeal Cert.KernelIdeal.Gen

/-- Flattening batch and head: the flat array at `(16·b + h, i, e)` is the array at `(b, h, i, e)`. -/
theorem flatten_apply (x : S2x16x2048x64.Idx → EReal) (hn : S2x16x2048x64.ShapeCasts S32x2048x64)
    (b : Fin 2) (h : Fin 16) (i : Fin 2048) (e : Fin 64) :
    shapeCast S32x2048x64 x hn (ix3 (⟨16 * b.val + h.val, by omega⟩ : Fin 32) i e) = x (ix4 b h i e) := by
  refine shapeCast_apply x hn _ (ix4 b h i e) ?_
  rw [Shape.rowMajor_val_four, Shape.rowMajor_val_three]
  show ((b.val * 16 + h.val) * 2048 + i.val) * 64 + e.val = ((16 * b.val + h.val) * 2048 + i.val) * 64 + e.val
  omega

/-- Splitting the first axis: the split array at `(b, h, i, e)` is the array at `(16·b + h, i, e)`. -/
theorem split_apply (x : S32x2048x64.Idx → EReal) (hn : S32x2048x64.ShapeCasts S2x16x2048x64)
    (b : Fin 2) (h : Fin 16) (i : Fin 2048) (e : Fin 64) :
    shapeCast S2x16x2048x64 x hn (ix4 b h i e) = x (ix3 (⟨16 * b.val + h.val, by omega⟩ : Fin 32) i e) := by
  refine shapeCast_apply x hn _ (ix3 (⟨16 * b.val + h.val, by omega⟩ : Fin 32) i e) ?_
  rw [Shape.rowMajor_val_four, Shape.rowMajor_val_three]
  show ((16 * b.val + h.val) * 2048 + i.val) * 64 + e.val = ((b.val * 16 + h.val) * 2048 + i.val) * 64 + e.val
  omega

variable (m : (ℓ : Loc nD τ sig) → Buf (Elt Ideal) ℓ) (c : Dev nD)

/-! ## The arrays the kernel finds -/

/-- The scaled, flattened query at `(16·b + h, i, e)`: the query at `(b, h, i, e)` times the scale. -/
theorem scaled_flat_apply (x : FVec Ideal S2x16x2048x64 .f32) (hn : S2x16x2048x64.ShapeCasts S32x2048x64)
    (hb : S_.BroadcastsInDim S32x2048x64 (![] : Fin 0 → Fin S32x2048x64.rank)) (hlt : FTy.bf16.bits < FTy.f32.bits)
    (b : Fin 2) (h : Fin 16) (i : Fin 2048) (e : Fin 64) :
    (truncf (F := Ideal) .bf16 (mulf (F := Ideal) (φ := .f32) (shapeCast S32x2048x64 x hn)
        (broadcastInDim S32x2048x64 ![] hb (constant (F := Ideal) S_ .f32 0x3E000000#32))) hlt)
      (ix3 (⟨16 * b.val + h.val, by omega⟩ : Fin 32) i e) = x (ix4 b h i e) * Cert.Attn.scale := by
  show shapeCast S32x2048x64 x hn (ix3 (⟨16 * b.val + h.val, by omega⟩ : Fin 32) i e) * _ = _
  rw [flatten_apply]
  rfl

/-- A flattened array in the narrower format at `(16·b + h, i, e)`: the array at `(b, h, i, e)`. -/
theorem flat_apply (x : FVec Ideal S2x16x2048x64 .f32) (hn : S2x16x2048x64.ShapeCasts S32x2048x64)
    (hlt : FTy.bf16.bits < FTy.f32.bits) (b : Fin 2) (h : Fin 16) (i : Fin 2048) (e : Fin 64) :
    (truncf (F := Ideal) .bf16 (shapeCast S32x2048x64 x hn : FVec Ideal S32x2048x64 .f32) hlt)
      (ix3 (⟨16 * b.val + h.val, by omega⟩ : Fin 32) i e) = x (ix4 b h i e) := by
  show shapeCast S32x2048x64 x hn (ix3 (⟨16 * b.val + h.val, by omega⟩ : Fin 32) i e) = _
  exact flatten_apply x hn b h i e

/-- The kernel's first operand, as the host operations' term over the launched query. -/
theorem V_q_term : V m c main_v3
      = truncf (F := Ideal) .bf16 (mulf (F := Ideal) (φ := .f32)
          (shapeCast S32x2048x64 (m ((c : Thread nD τ).loc main_arg0) : FVec Ideal S2x16x2048x64 .f32) shapeCasts_S2x16x2048x64_S32x2048x64)
          (broadcastInDim S32x2048x64 ![] bcast_S_S32x2048x64 (constant (F := Ideal) S_ .f32 0x3E000000#32))) bitsLt_bf16_f32 := by
  show StableHlo.after hostOps0 (fun b => m (c, b)) (Proc.devRef .tc main_v3) = _
  after_results
  rfl

/-- The kernel's second operand, as the host operations' term over the launched key. -/
theorem V_k_term : V m c main_v5
      = truncf (F := Ideal) .bf16
          (shapeCast S32x2048x64 (m ((c : Thread nD τ).loc main_arg1) : FVec Ideal S2x16x2048x64 .f32) shapeCasts_S2x16x2048x64_S32x2048x64
            : FVec Ideal S32x2048x64 .f32) bitsLt_bf16_f32 := by
  show StableHlo.after hostOps0 (fun b => m (c, b)) (Proc.devRef .tc main_v5) = _
  after_results
  rfl

/-- The kernel's third operand, as the host operations' term over the launched value array. -/
theorem V_v_term : V m c main_v7
      = truncf (F := Ideal) .bf16
          (shapeCast S32x2048x64 (m ((c : Thread nD τ).loc main_arg2) : FVec Ideal S2x16x2048x64 .f32) shapeCasts_S2x16x2048x64_S32x2048x64
            : FVec Ideal S32x2048x64 .f32) bitsLt_bf16_f32 := by
  show StableHlo.after hostOps0 (fun b => m (c, b)) (Proc.devRef .tc main_v7) = _
  after_results
  rfl

/-- The kernel's first operand is the flattened query times the scale (`q` names the launched query). -/
theorem V_q_of (q : S2x16x2048x64.Idx → EReal) (hq : m ((c : Thread nD τ).loc main_arg0) = q)
    (b : Fin 2) (h : Fin 16) (i : Fin 2048) (e : Fin 64) :
    V m c main_v3 (ix3 (⟨16 * b.val + h.val, by omega⟩ : Fin 32) i e) = q (ix4 b h i e) * Cert.Attn.scale := by
  subst hq
  rw [V_q_term]
  exact scaled_flat_apply _ _ _ _ b h i e

/-- The kernel's second operand is the flattened key (`k` names the launched key). -/
theorem V_k_of (k : S2x16x2048x64.Idx → EReal) (hk : m ((c : Thread nD τ).loc main_arg1) = k)
    (b : Fin 2) (h : Fin 16) (i : Fin 2048) (e : Fin 64) :
    V m c main_v5 (ix3 (⟨16 * b.val + h.val, by omega⟩ : Fin 32) i e) = k (ix4 b h i e) := by
  subst hk
  rw [V_k_term]
  exact flat_apply _ _ _ b h i e

/-- The kernel's third operand is the flattened value array (`v` names the launched value array). -/
theorem V_v_of (v : S2x16x2048x64.Idx → EReal) (hv : m ((c : Thread nD τ).loc main_arg2) = v)
    (b : Fin 2) (h : Fin 16) (i : Fin 2048) (e : Fin 64) :
    V m c main_v7 (ix3 (⟨16 * b.val + h.val, by omega⟩ : Fin 32) i e) = v (ix4 b h i e) := by
  subst hv
  rw [V_v_term]
  exact flat_apply _ _ _ b h i e

/-- The kernel's first operand at `(16·b + h, i, e)`: the launched query at `(b, h, i, e)` times the scale. -/
theorem V_q (b : Fin 2) (h : Fin 16) (i : Fin 2048) (e : Fin 64) :
    V m c main_v3 (ix3 (⟨16 * b.val + h.val, by omega⟩ : Fin 32) i e)
      = HMul.hMul (α := EReal) (β := EReal) (γ := EReal) (m ((c : Thread nD τ).loc main_arg0) (ix4 b h i e)) Cert.Attn.scale :=
  V_q_of m c _ rfl b h i e

/-- The kernel's second operand at `(16·b + h, i, e)`: the launched key at `(b, h, i, e)`. -/
theorem V_k (b : Fin 2) (h : Fin 16) (i : Fin 2048) (e : Fin 64) :
    V m c main_v5 (ix3 (⟨16 * b.val + h.val, by omega⟩ : Fin 32) i e) = m ((c : Thread nD τ).loc main_arg1) (ix4 b h i e) :=
  V_k_of m c _ rfl b h i e

/-- The kernel's third operand at `(16·b + h, i, e)`: the launched value array at `(b, h, i, e)`. -/
theorem V_v (b : Fin 2) (h : Fin 16) (i : Fin 2048) (e : Fin 64) :
    V m c main_v7 (ix3 (⟨16 * b.val + h.val, by omega⟩ : Fin 32) i e) = m ((c : Thread nD τ).loc main_arg2) (ix4 b h i e) :=
  V_v_of m c _ rfl b h i e

/-! ## The result after the kernel -/

/-- The program's result at `(b, h, i, e)`: what the kernel's run leaves in its output array, at `(16·b + h, i, e)`. -/
theorem tail_apply (R : Buf (Elt Ideal) ((c : Thread nD τ).loc main_v8)) (hR : (dats m 0 c).arrAt 3 cfg0.N = R)
    (b : Fin 2) (h : Fin 16) (i : Fin 2048) (e : Fin 64) :
    Pipeline.afterTail₀ cfgs (dats m) 0 (V0 m) [hostOps1] c main_v9 (ix4 b h i e)
      = R (ix3 (⟨16 * b.val + h.val, by omega⟩ : Fin 32) i e) := by
  have e0 : Pipeline.afterTail₀ cfgs (dats m) 0 (V0 m) [hostOps1] c main_v9
      = shapeCast S2x16x2048x64 (R : S32x2048x64.Idx → EReal) shapeCasts_S32x2048x64_S2x16x2048x64 := by
    unfold Pipeline.afterTail₀
    show StableHlo.after hostOps1 _ (Proc.devRef .tc main_v9) = _
    after_results
    have hw : Pipeline.withArrays (cfgs 0).spec c (V0 m c) (fun w => (dats m 0 c).arrAt w (cfgs 0).N)
        (Proc.devRef .tc main_v8) = R :=
      (Pipeline.withArrays_arr spec0 launch0.win.arr_inj c _ _ 3).trans hR
    exact congrArg (fun X : S32x2048x64.Idx → EReal => shapeCast S2x16x2048x64 X shapeCasts_S32x2048x64_S2x16x2048x64) hw
  rw [e0]
  exact split_apply _ _ b h i e

end Cert.KernelIdeal.Glue

end
-- ==== Proof.Blocks.lean ====
/-
  What the three input blocks of a grid point hold.

  Grid point `t = (bh · 2 + qi) · 4 + ki` reads rows `1024 · qi …` of head `bh` of the scaled queries, and rows
  `512 · ki …` of the same head of the keys and of the values. With `g = t / 4` (head and query block) this is batch
  `fb g`, head `fh g`, query row `fi g r` and key row `fj (t % 4) j`. For real inputs the point's scores and values are
  therefore the real numbers `sigma` and `nuu`.
-/
import proofs.«158893_j3624952397975_2_alg».proof.Proof.HostGlue
import proofs.«158893_j3624952397975_2_alg».proof.Proof.Rows
import proofs.«158893_j3624952397975_2_alg».proof.Proof.RefAttention
import proofs.«158893_j3624952397975_2_alg».proof.Proof.Step

set_option maxRecDepth 16384

noncomputable section

open scoped BigOperators

namespace Cert.KernelIdeal.Blocks

open Idealize.ShloMosaic Idealize.ShloMosaic.TcCoe Idealize.ShloMosaic.ValueIdx
open Cert.KernelIdeal Cert.KernelIdeal.Gen Cert.Attn

/-- The blocks' positions in their arrays, over the grid: the first coordinate is the head `t / 8`, the second the query
    block `(t / 4) % 2` for the queries and the key block `t % 4` for the keys and the values, the third is `0`. -/
theorem idx_facts : ∀ t : Fin cfg0.N,
    win0_0.index t 0 = t.val / 8 ∧ win0_0.index t 1 = (t.val / 4) % 2 ∧ win0_0.index t 2 = 0
    ∧ win0_1.index t 0 = t.val / 8 ∧ win0_1.index t 1 = t.val % 4 ∧ win0_1.index t 2 = 0
    ∧ win0_2.index t 0 = t.val / 8 ∧ win0_2.index t 1 = t.val % 4 ∧ win0_2.index t 2 = 0 :=
  (by decide +kernel : ∀ t : Fin grid0.N, _)

variable (m : (ℓ : Loc nD τ sig) → Buf (Elt Ideal) ℓ) (c : Dev nD)
variable (q k v : A4.Idx → EReal)

/-! ## The blocks at coordinates -/

/-- The query block of point `t`, row `r`, column `e`: the scaled query at batch `fb g`, head `fh g`, row `fi g r`,
    with `g = t / 4`. -/
theorem blockQ (hq : m ((c : Thread nD τ).loc main_arg0) = q) (t : Fin cfg0.N) (r : Fin 1024) (e : Fin 64) :
    (iblk m c 0 t : Vec Ideal S1x1024x64 .bf16) (ix3 0 r e)
      = q (ix4 (fb (t.val / 4)) (fh (t.val / 4)) (fi (t.val / 4) r) e) * Cert.Attn.scale := by
  have hN : t.val < 256 := lt_of_lt_of_eq t.isLt N_0
  obtain ⟨h00, h01, h02, -⟩ := idx_facts t
  unfold iblk
  rw [View.read_apply]
  show V m c main_v3 (((cfg0.win 0).blk t).view.emb (ix3 0 r e)) = _
  have hidx : ((cfg0.win 0).blk t).view.emb (ix3 0 r e)
      = ix3 (⟨16 * (fb (t.val / 4)).val + (fh (t.val / 4)).val, by omega⟩ : Fin 32) (fi (t.val / 4) r) e := by
    funext a
    apply Fin.ext
    match a with
    | ⟨0, _⟩ =>
      show win0_0.index t 0 * 1 + 1 * 0 = 16 * ((t.val / 4 / 32) % 2) + (t.val / 4 / 2) % 16
      rw [h00]; omega
    | ⟨1, _⟩ =>
      show win0_0.index t 1 * 1024 + 1 * r.val = (1024 * ((t.val / 4) % 2) + r.val) % 2048
      rw [h01]; omega
    | ⟨2, _⟩ =>
      show win0_0.index t 2 * 64 + 1 * e.val = e.val
      rw [h02]; omega
  exact (congrArg (V m c main_v3) hidx).trans
    (Glue.V_q_of m c q hq (fb (t.val / 4)) (fh (t.val / 4)) (fi (t.val / 4) r) e)

/-- The key block of point `t`, row `j`, column `e`: the key at batch `fb g`, head `fh g`, row `fj (t % 4) j`. -/
theorem blockK (hk : m ((c : Thread nD τ).loc main_arg1) = k) (t : Fin cfg0.N) (j : Fin 512) (e : Fin 64) :
    (iblk m c 1 t : Vec Ideal S1x512x64 .bf16) (ix3 0 j e)
      = k (ix4 (fb (t.val / 4)) (fh (t.val / 4)) (fj (t.val % 4) j) e) := by
  have hN : t.val < 256 := lt_of_lt_of_eq t.isLt N_0
  obtain ⟨-, -, -, h10, h11, h12, -⟩ := idx_facts t
  unfold iblk
  rw [View.read_apply]
  show V m c main_v5 (((cfg0.win 1).blk t).view.emb (ix3 0 j e)) = _
  have hidx : ((cfg0.win 1).blk t).view.emb (ix3 0 j e)
      = ix3 (⟨16 * (fb (t.val / 4)).val + (fh (t.val / 4)).val, by omega⟩ : Fin 32) (fj (t.val % 4) j) e := by
    funext a
    apply Fin.ext
    match a with
    | ⟨0, _⟩ =>
      show win0_1.index t 0 * 1 + 1 * 0 = 16 * ((t.val / 4 / 32) % 2) + (t.val / 4 / 2) % 16
      rw [h10]; omega
    | ⟨1, _⟩ =>
      show win0_1.index t 1 * 512 + 1 * j.val = (512 * (t.val % 4) + j.val) % 2048
      rw [h11]; omega
    | ⟨2, _⟩ =>
      show win0_1.index t 2 * 64 + 1 * e.val = e.val
      rw [h12]; omega
  exact (congrArg (V m c main_v5) hidx).trans
    (Glue.V_k_of m c k hk (fb (t.val / 4)) (fh (t.val / 4)) (fj (t.val % 4) j) e)

/-- The value block of point `t`, row `j`, column `d`: the value at batch `fb g`, head `fh g`, row `fj (t % 4) j`. -/
theorem blockV (hv : m ((c : Thread nD τ).loc main_arg2) = v) (t : Fin cfg0.N) (j : Fin 512) (d : Fin 64) :
    (iblk m c 2 t : Vec Ideal S1x512x64 .bf16) (ix3 0 j d)
      = v (ix4 (fb (t.val / 4)) (fh (t.val / 4)) (fj (t.val % 4) j) d) := by
  have hN : t.val < 256 := lt_of_lt_of_eq t.isLt N_0
  obtain ⟨-, -, -, -, -, -, h20, h21, h22⟩ := idx_facts t
  unfold iblk
  rw [View.read_apply]
  show V m c main_v7 (((cfg0.win 2).blk t).view.emb (ix3 0 j d)) = _
  have hidx : ((cfg0.win 2).blk t).view.emb (ix3 0 j d)
      = ix3 (⟨16 * (fb (t.val / 4)).val + (fh (t.val / 4)).val, by omega⟩ : Fin 32) (fj (t.val % 4) j) d := by
    funext a
    apply Fin.ext
    match a with
    | ⟨0, _⟩ =>
      show win0_2.index t 0 * 1 + 1 * 0 = 16 * ((t.val / 4 / 32) % 2) + (t.val / 4 / 2) % 16
      rw [h20]; omega
    | ⟨1, _⟩ =>
      show win0_2.index t 1 * 512 + 1 * j.val = (512 * (t.val % 4) + j.val) % 2048
      rw [h21]; omega
    | ⟨2, _⟩ =>
      show win0_2.index t 2 * 64 + 1 * d.val = d.val
      rw [h22]; omega
  exact (congrArg (V m c main_v7) hidx).trans
    (Glue.V_v_of m c v hv (fb (t.val / 4)) (fh (t.val / 4)) (fj (t.val % 4) j) d)

/-! ## The point's scores and values, as real numbers -/

/-- The point's scores are the scores of its query rows against its key rows. -/
theorem sc_eq_score (hq : m ((c : Thread nD τ).loc main_arg0) = q) (hk : m ((c : Thread nD τ).loc main_arg1) = k)
    (t : Fin cfg0.N) (r : Fin 1024) (j : Fin 512) :
    Cert.KernelIdeal.Step.sc (iblk m c 0 t) (iblk m c 1 t) r j
      = score q k (fb (t.val / 4)) (fh (t.val / 4)) (fi (t.val / 4) r) (fj (t.val % 4) j) := by
  unfold Cert.KernelIdeal.Step.sc score
  refine Finset.sum_congr rfl fun e _ => ?_
  exact congrArg₂ (fun a b : EReal => a * b) (blockQ m c q hq t r e) (blockK m c k hk t j e)

/-- For real `q` and `k` the point's scores are the real numbers `sigma`. -/
theorem scores_eq (hq : m ((c : Thread nD τ).loc main_arg0) = q) (hk : m ((c : Thread nD τ).loc main_arg1) = k)
    (hqr : AllReal q) (hkr : AllReal k) :
    ∀ (t : Fin cfg0.N) (r : Fin 1024) (j : Fin 512),
      Cert.KernelIdeal.Step.sc (iblk m c 0 t) (iblk m c 1 t) r j
        = ((sigma q k (t.val / 4) r (t.val % 4) j : ℝ) : EReal) := by
  intro t r j
  obtain ⟨x, hx⟩ := score_real hqr hkr (fb (t.val / 4)) (fh (t.val / 4)) (fi (t.val / 4) r) (fj (t.val % 4) j)
  rw [sc_eq_score m c q k hq hk t r j]
  unfold sigma
  rw [hx, EReal.toReal_coe]

/-- For real `v` the point's values are the real numbers `nuu`. -/
theorem values_eq (hv : m ((c : Thread nD τ).loc main_arg2) = v) (hvr : AllReal v) :
    ∀ (t : Fin cfg0.N) (j : Fin 512) (d : Fin 64),
      (iblk m c 2 t : Vec Ideal S1x512x64 .bf16) (ix3 0 j d)
        = ((nuu v (t.val / 4) d (t.val % 4) j : ℝ) : EReal) := by
  intro t j d
  obtain ⟨x, hx⟩ := hvr (ix4 (fb (t.val / 4)) (fh (t.val / 4)) (fj (t.val % 4) j) d)
  refine (blockV m c v hv t j d).trans ?_
  unfold nuu
  rw [hx, EReal.toReal_coe]

end Cert.KernelIdeal.Blocks

end
-- ==== Proof.RefValue.lean ====
/-
  Attention with a real shift, for real inputs, is the softmax-weighted sum of the values.

  For real scores `s j`, a real shift `M` and real values `w j`, every exponential `exp (s j - M)` is a positive real, the
  denominator `0 + ∑ exp (s j' - M)` is a positive real, so each weight is the real quotient and the output is
  `∑ j, exp (s j - M) / (∑ j', exp (s j' - M)) · w j`, which does not depend on `M`: it is `smx s w`.
-/
import proofs.«158893_j3624952397975_2_alg».proof.Proof.SoftmaxValue
import proofs.«158893_j3624952397975_2_alg».proof.Proof.RefAttention

noncomputable section

open scoped BigOperators

namespace Cert.Attn

open Idealize.ShloMosaic Idealize.ShloMosaic.ValueIdx

/-- A real number inside the extended reals is the coercion of its real part. -/
theorem eq_coe_toReal {x : EReal} (hx : ∃ r : ℝ, x = (r : EReal)) : x = ((x.toReal : ℝ) : EReal) := by
  obtain ⟨r, rfl⟩ := hx
  rw [EReal.toReal_coe]

/-- THE ATTENTION OUTPUT FOR REAL INPUTS: with any real shift it is the softmax-weighted sum of the real values of the
    column, for the real scores of the row. -/
theorem attn_eq_smx (q k v : A4.Idx → EReal) (hq : AllReal q) (hk : AllReal k) (hv : AllReal v) (M : ℝ)
    (b : Fin 2) (h : Fin 16) (i : Fin 2048) (d : Fin 64) :
    attn q k v (M : EReal) b h i d
      = ((Online.smx (fun j : Fin 2048 => (score q k b h i j).toReal) (fun j => (v (ix4 b h j d)).toReal) : ℝ) : EReal) := by
  have hs : ∀ j, score q k b h i j = (((score q k b h i j).toReal : ℝ) : EReal) :=
    fun j => eq_coe_toReal (score_real hq hk b h i j)
  have hw : ∀ j, v (ix4 b h j d) = (((v (ix4 b h j d)).toReal : ℝ) : EReal) :=
    fun j => eq_coe_toReal (hv (ix4 b h j d))
  have hden : (0 : EReal) + ∑ j' : Fin 2048, Ideal.exp (score q k b h i j' - (M : EReal))
      = ((∑ j' : Fin 2048, Real.exp ((score q k b h i j').toReal - M) : ℝ) : EReal) := by
    rw [zero_add, Online.coe_sum]
    refine Finset.sum_congr rfl fun j' _ => ?_
    rw [← Online.exp_sub_coe, ← hs j']
  have hpos0 : 0 < ∑ j' : Fin 2048, Real.exp ((score q k b h i j').toReal - M) :=
    Finset.sum_pos (fun j' _ => Real.exp_pos _) Finset.univ_nonempty
  have hpos : (∑ j' : Fin 2048, Real.exp ((score q k b h i j').toReal - M)) ≠ 0 := hpos0.ne'
  have hR : ((Online.smx (fun j : Fin 2048 => (score q k b h i j).toReal) (fun j => (v (ix4 b h j d)).toReal) : ℝ) : EReal)
      = ∑ j : Fin 2048, ((Real.exp ((score q k b h i j).toReal - M)
          / (∑ j' : Fin 2048, Real.exp ((score q k b h i j').toReal - M)) * (v (ix4 b h j d)).toReal : ℝ) : EReal) := by
    rw [← Online.weights_eq_smx (fun j : Fin 2048 => (score q k b h i j).toReal)
      (fun j => (v (ix4 b h j d)).toReal) M, Online.coe_sum]
  unfold attn
  rw [hR, hden]
  refine Finset.sum_congr rfl fun j _ => ?_
  rw [EReal.coe_mul, ← Online.div_coe_coe _ hpos, ← Online.exp_sub_coe, ← hs j, ← hw j]

end Cert.Attn

end
-- ==== Proof.FiniteInputs.lean ====
/-
  From the precondition to real inputs.

  The precondition is the conjunction, over the three arguments, of "every entry's absolute value is below `+∞`".
  An extended real whose absolute value `max x (-x)` is below `⊤` is neither `⊤` nor `⊥`, so it is a real number.
-/
import proofs.«158893_j3624952397975_2_alg».proof.Proof.Attention
import proofs.«158893_j3624952397975_2_alg».proof.Pre_finite_inputs
import proofs.«158893_j3624952397975_2_alg».proof.Proof.Gen.Pre_finite_inputs
import Idealize.ShloMosaic.Lib.ReduceAll

noncomputable section

namespace Cert.Attn

open Idealize.ShloMosaic Idealize.ShloMosaic.ValueIdx

/-- The scalar shape has one index. -/
instance subsingleton_scalar_idx : Subsingleton Cert.Pre_finite_inputs.S_.Idx :=
  ⟨fun a b => funext fun d => d.elim0⟩

/-- The word of `+∞` is `⊤`. -/
theorem ofBits_pos_inf : Ideal.ofBits .f32 0x7F800000#32 = ⊤ := by simp [Ideal.ofBits, Ideal.ieee]

/-- An extended real whose absolute value is below `⊤` is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- An extended real whose absolute value compares below the word of `+∞` is a real number. -/
theorem real_of_cmp_abs (x : EReal)
    (hx : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h1 : Ideal.cmp .olt (max x (-x)) (Ideal.ofBits .f32 0x7F800000#32) = 1#1 := hx
  rw [ofBits_pos_inf] at h1
  refine real_of_abs_lt_top x ?_
  by_contra hn
  have h0 : Ideal.cmp .olt (max x (-x)) ⊤ = 0#1 := by simp [Ideal.cmp, hn]
  rw [h0] at h1
  exact absurd h1 (by decide)

/-- THE PRECONDITION GIVES REAL INPUTS: if the finiteness predicate answers `true`, every entry of `q`, `k` and `v` is a
    real number. -/
theorem allReal_of_pre [Cert.Pre_finite_inputs.Facts] (q k v : FVec Ideal Cert.Pre_finite_inputs.S2x16x2048x64 .f32)
    (h : Cert.Pre_finite_inputs.fn (F := Ideal) q k v = fun _ => 1#1) : AllReal q ∧ AllReal k ∧ AllReal v := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_cmp_abs (q i) (Host.reduce_andi_all _ _ _ _ _ h1 i)
  · exact real_of_cmp_abs (k i) (Host.reduce_andi_all _ _ _ _ _ h2 i)
  · exact real_of_cmp_abs (v i) (Host.reduce_andi_all _ _ _ _ _ h3 i)

end Cert.Attn

end
-- ==== Proof.KernelRun.lean ====
/-
  The kernel program's run, read: under the precondition (every entry of q, k, v a real number) the result array ends
  at the reference's own function of the arguments. The region leaves the array R (softmax-weighted sums, one per
  (head, query row, column)) in the [32, 2048, 64] result; the reshape after it reads entry (b, h, i, d) at
  (16 b + h, i, d); and for real inputs the reference's entry there is the same softmax-weighted sum, whatever real
  shift its exponentials carry.
-/
import proofs.«158893_j3624952397975_2_alg».proof.Proof.Output
import proofs.«158893_j3624952397975_2_alg».proof.Proof.Blocks
import proofs.«158893_j3624952397975_2_alg».proof.Proof.HostGlue
import proofs.«158893_j3624952397975_2_alg».proof.Proof.RefValue
import proofs.«158893_j3624952397975_2_alg».proof.Proof.FiniteInputs
import proofs.«158893_j3624952397975_2_alg».proof.Defs

set_option maxRecDepth 16384

noncomputable section

namespace Cert.KernelIdeal.Result

open Idealize.ShloMosaic Idealize.ShloMosaic.ValueIdx Idealize.ShloMosaic.TcCoe Idealize.SL.Sem
open Cert.KernelIdeal Cert.KernelIdeal.Gen Cert.Attn Cert.Attn.Online Cert.KernelIdeal.Output

variable (m : (ℓ : Loc nD τ sig) → Buf (Elt Ideal) ℓ) (ρ : Dev nD → PrngReg)

/-- The reference's function of the kernel program's argument arrays. -/
def res (c : Dev nD) : Buf (Elt Ideal) ((c.tc : Thread nD τ).loc main_v9) :=
  Cert.ReferenceIdeal.Read.val_main_v14 (F := Ideal) (m ((c.tc : Thread nD τ).loc main_arg0))
    (m ((c.tc : Thread nD τ).loc main_arg1)) (m ((c.tc : Thread nD τ).loc main_arg2))

/-- The array `R` read through the final reshape is the reference's entry. -/
theorem R_eq_ref (q k v : A4.Idx → EReal) (hq : AllReal q) (hk : AllReal k) (hv : AllReal v)
    (b : Fin 2) (h : Fin 16) (i : Fin 2048) (d : Fin 64) :
    R3 q k v (ix3 (⟨16 * b.val + h.val, by omega⟩ : Fin 32) i d)
      = Cert.ReferenceIdeal.Read.val_main_v14 (F := Ideal) q k v (ix4 b h i d) := by
  obtain ⟨M, hM⟩ := ref_apply q k v hq hk b h i d
  rw [hM, attn_eq_smx q k v hq hk hv M b h i d]
  show R q k v (⟨16 * b.val + h.val, by omega⟩ : Fin 32) i d = _
  unfold R
  have hb : gb (⟨16 * b.val + h.val, by omega⟩ : Fin 32) = b := Fin.ext (by simp only [gb]; omega)
  have hh : gh (⟨16 * b.val + h.val, by omega⟩ : Fin 32) = h := Fin.ext (by simp only [gh]; omega)
  rw [hb, hh]

/-- The run of the kernel program: the result at the reference's function of the arguments, the arguments unchanged. -/
theorem run [hP : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v9) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)
  obtain ⟨hq, hk, hv⟩ := allReal_of_pre _ _ _ (hpre c)
  refine ((h c).2 main_v9 (Pipeline.mem_restRefs_of main_v9 (by decide) (by decide))).trans ?_
  have hfin := Output.final m c _ _ _
    (Cert.KernelIdeal.Blocks.scores_eq m c _ _ rfl rfl hq hk) (Cert.KernelIdeal.Blocks.values_eq m c _ rfl hv)
  funext x
  obtain ⟨b, h', i, d, rfl⟩ : ∃ (b : Fin 2) (h' : Fin 16) (i : Fin 2048) (d : Fin 64), x = ix4 b h' i d :=
    ⟨x 0, x 1, x 2, x 3, eq_ix4 x⟩
  rw [Cert.KernelIdeal.Glue.tail_apply m c _ hfin b h' i d]
  exact R_eq_ref _ _ _ hq hk hv b h' i d

end Cert.KernelIdeal.Result

end
-- ==== Proof.lean ====
/-
  Scaled dot-product attention, computed two ways, over the extended reals.

  The kernel program flattens (batch, head), scales q by 1/8, and runs an online softmax over four blocks of 512 keys
  for each block of 1024 query rows: a running maximum m, a running denominator l and a running numerator acc are
  carried from one key block to the next and rescaled by exp (m_old - m_new); after the last key block the output is
  acc / l. The reference computes the scores q·kᵀ/8 at once, subtracts each row's maximum, exponentiates, normalizes by
  the row sum and multiplies by v.

  Under the precondition every entry of q, k, v is a real number, so every score is real, every maximum over a nonempty
  block is real, and all the sums below are sums of reals. One step of the recurrence holds for ANY two real shifts
    exp (m - m') · ∑_{blocks < n} exp (s - m) + ∑_{block n} exp (s - m') = ∑_{blocks ≤ n} exp (s - m')
  (the first step starts from m = -∞, where exp (-∞ - m') = 0), so after four blocks acc / l is
    (∑_j exp (s_j - μ) · v_j) / (∑_j exp (s_j - μ))
  for some real μ, which does not depend on μ: it is the softmax-weighted sum of the column of v, and so is the
  reference's entry, whose shift is the row maximum. Finiteness is used exactly there: on the extended reals the
  rescaling law exp (a - b) · exp (c - a) = exp (c - b) and the cancellation of exp (-μ) fail at the infinities.

  The frames of the two programs with a kernel are the generated ones; the reference's frame is its generated run; the
  ideal pass rewrote nothing, so the kernel program read at the ideal values is its own idealization.
-/
import proofs.«158893_j3624952397975_2_alg».proof.Defs
import proofs.«158893_j3624952397975_2_alg».proof.Proof.Gen.Kernel
import proofs.«158893_j3624952397975_2_alg».proof.Proof.Gen.Kernel.Skeleton
import proofs.«158893_j3624952397975_2_alg».proof.Proof.Gen.Kernel.Launch
import proofs.«158893_j3624952397975_2_alg».proof.Proof.Gen.Kernel.Points
import proofs.«158893_j3624952397975_2_alg».proof.Proof.Gen.Kernel.Frame
import proofs.«158893_j3624952397975_2_alg».proof.Proof.Gen.KernelIdeal
import proofs.«158893_j3624952397975_2_alg».proof.Proof.Gen.KernelIdeal.Skeleton
import proofs.«158893_j3624952397975_2_alg».proof.Proof.Gen.KernelIdeal.Launch
import proofs.«158893_j3624952397975_2_alg».proof.Proof.Gen.KernelIdeal.Points
import proofs.«158893_j3624952397975_2_alg».proof.Proof.Gen.KernelIdeal.Frame
import proofs.«158893_j3624952397975_2_alg».proof.Proof.Gen.ReferenceIdeal
import proofs.«158893_j3624952397975_2_alg».proof.Proof.Gen.Pre_finite_inputs
import proofs.«158893_j3624952397975_2_alg».proof.Proof.Gen.ReferenceIdeal.Run
import proofs.«158893_j3624952397975_2_alg».proof.Proof.Gen.ReferenceIdeal.Read
import proofs.«158893_j3624952397975_2_alg».proof.Proof.KernelRun
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_k : @Cert.frame_Kernel Cert.Kernel.Gen.facts Cert.Pre_finite_inputs.Gen.facts :=
  fun m ρ _ => Cert.Kernel.Gen.frame m ρ

/-- The idealized kernel program runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at the reference's function of the (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Result.res m c, Cert.KernelIdeal.Result.run m ρ hpre, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v14_eq _ _ _)).trans ?_
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
